-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1048576 : Shape := ⟨3, ![8, 8, 1048576]⟩
abbrev S8x8 : Shape := ⟨2, ![8, 8]⟩
abbrev S_ : Shape := ⟨0, ![]⟩

class Facts : Prop where
  bcast_S_S8x8x1048576 : S_.BroadcastsInDim S8x8x1048576 (![] : Fin 0 → Fin S8x8x1048576.rank)
  reducesTo_S8x8x1048576_S_d0_1_2 : S8x8x1048576.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S8x8x1048576 .f32) (main_arg1 : FVec F S8x8x1048576 .f32) (main_arg2 : FVec F S8x8 .f32) : IVec S_ 1 :=
  let main_v0 : FVec F S8x8x1048576 .f32 := Host.absf main_arg0
  let main_cst : FVec F S_ .f32 := constant S_ .f32 0x7F800000#32
  let main_v1 : FVec F S8x8x1048576 .f32 := broadcastInDim S8x8x1048576 ![] bcast_S_S8x8x1048576 main_cst
  let main_v2 : IVec S8x8x1048576 1 := cmpf .olt main_v0 main_v1
  let main_c : IVec S_ 1 := constantI S_ 1 1#1
  let main_v3 : IVec S_ 1 := (fun x v => Host.reduce IntOp.andi x v reducesTo_S8x8x1048576_S_d0_1_2 h_S_) main_v2 main_c
  let main_v4 : FVec F S8x8x1048576 .f32 := Host.absf main_arg1
  let main_cst_0 : FVec F S_ .f32 := constant S_ .f32 0x7F800000#32
  let main_v5 : FVec F S8x8x1048576 .f32 := broadcastInDim S8x8x1048576 ![] bcast_S_S8x8x1048576 main_cst_0
  let main_v6 : IVec S8x8x1048576 1 := cmpf .olt main_v4 main_v5
  let main_c_1 : IVec S_ 1 := constantI S_ 1 1#1
  let main_v7 : IVec S_ 1 := (fun x v => Host.reduce IntOp.andi x v reducesTo_S8x8x1048576_S_d0_1_2 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  main_v13
-- ==== Kernel.lean ====
abbrev S8x8x1048576 : Shape := ⟨3, ![8, 8, 1048576]⟩
abbrev S8x8 : Shape := ⟨2, ![8, 8]⟩
abbrev S8x8x8 : Shape := ⟨3, ![8, 8, 8]⟩
abbrev S1x8x131072 : Shape := ⟨3, ![1, 8, 131072]⟩
abbrev S1x8x8 : Shape := ⟨3, ![1, 8, 8]⟩
abbrev S8x131072 : Shape := ⟨2, ![8, 131072]⟩
abbrev S8 : Shape := ⟨1, ![8]⟩
abbrev S8x1 : Shape := ⟨2, ![8, 1]⟩
abbrev S_ : Shape := ⟨0, ![]⟩
abbrev S8x8x1 : Shape := ⟨3, ![8, 8, 1]⟩
abbrev S1x8x1 : Shape := ⟨3, ![1, 8, 1]⟩

abbrev nBuf : Space → Nat
  | .hbm => 14
  | .vmem => 15
  | .smem => 0
  | _ => 0

abbrev bufTy : (tb : Table) → Fin (tcTables nBuf tb) → BufTy
  | .hbm, ⟨0, _⟩ => ⟨S8x8x1048576, .f32⟩
  | .hbm, ⟨1, _⟩ => ⟨S8x8x1048576, .f32⟩
  | .hbm, ⟨2, _⟩ => ⟨S8x8, .f32⟩
  | .hbm, ⟨3, _⟩ => ⟨S8x8x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8, .f32⟩
  | .hbm, ⟨8, _⟩ => ⟨S8x8, .f32⟩
  | .hbm, ⟨9, _⟩ => ⟨S_, .f32⟩
  | .hbm, ⟨10, _⟩ => ⟨S8x8, .f32⟩
  | .hbm, ⟨11, _⟩ => ⟨S8x8, .f32⟩
  | .hbm, ⟨12, _⟩ => ⟨S8x8x1, .f32⟩
  | .hbm, ⟨13, _⟩ => ⟨S8x8x1048576, .f32⟩
  | .local _ .vmem, ⟨0, _⟩ => ⟨S1x8x131072, .f32⟩
  | .local _ .vmem, ⟨1, _⟩ => ⟨S1x8x131072, .f32⟩
  | .local _ .vmem, ⟨2, _⟩ => ⟨S1x8x8, .f32⟩
  | .local _ .vmem, ⟨3, _⟩ => ⟨S1x8x8, .f32⟩
  | .local _ .vmem, ⟨4, _⟩ => ⟨S8x8, .f32⟩
  | .local _ .vmem, ⟨5, _⟩ => ⟨S1x8x131072, .f32⟩
  | .local _ .vmem, ⟨6, _⟩ => ⟨S1x8x131072, .f32⟩
  | .local _ .vmem, ⟨7, _⟩ => ⟨S1x8x131072, .f32⟩
  | .local _ .vmem, ⟨8, _⟩ => ⟨S1x8x131072, .f32⟩
  | .local _ .vmem, ⟨9, _⟩ => ⟨S1x8x8, .f32⟩
  | .local _ .vmem, ⟨10, _⟩ => ⟨S1x8x8, .f32⟩
  | .local _ .vmem, ⟨11, _⟩ => ⟨S1x8x1, .f32⟩
  | .local _ .vmem, ⟨12, _⟩ => ⟨S1x8x1, .f32⟩
  | .local _ .vmem, ⟨13, _⟩ => ⟨S1x8x131072, .f32⟩
  | .local _ .vmem, ⟨14, _⟩ => ⟨S1x8x131072, .f32⟩
  | _, _ => ⟨S8x8x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x131072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S1x8x131072_S1x8x131072_0_0_0 : ∀ a, (![0, 0, 0] : Fin 3 → Nat) a + S1x8x131072.size a ≤ S1x8x131072.size a
  h_S1x8x131072 : 0 < S1x8x131072.numel
  shapeCasts_S1x8x131072_S8x131072 : S1x8x131072.ShapeCasts S8x131072
  reduces_S8x8_S8 : S8x8.Reduces [1] S8
  shapeCasts_S8_S8x1 : S8.ShapeCasts S8x1
  broadcasts_S8x1_S8x8 : S8x1.Broadcasts S8x8
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  shapeCasts_S8x8_S1x8x8 : S8x8.ShapeCasts S1x8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  broadcasts_S8x1_S8x131072 : S8x1.Broadcasts S8x131072
  shapeCasts_S8x131072_S1x8x131072 : S8x131072.ShapeCasts S1x8x131072
  dot_S8x131072_S8x131072_S8x8_1_1_0_0_n_n_wf : DotDims.WF S8x131072 S8x131072 S8x8 [1] [1] [0] [0] [] []
  dot_S8x8_S8x131072_S8x131072_1_0_0_1_n_n_wf : DotDims.WF S8x8 S8x131072 S8x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x131072.size a ≤ S8x8x1048576.size a
  hwx0_0 : ∀ i : grid0.Coords, EltTy.bits .f32 = 32 ∨ (Rect.block (s := S8x8x1048576) S1x8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x8.size a ≤ S8x8x8.size a
  hwx0_1 : ∀ i : grid0.Coords, EltTy.bits .f32 = 32 ∨ (Rect.block (s := S8x8x8) S1x8x8.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x131072.size a ≤ S8x8x1048576.size a
  hwx1_0 : ∀ i : grid1.Coords, EltTy.bits .f32 = 32 ∨ (Rect.block (s := S8x8x1048576) S1x8x131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x131072.size a ≤ S8x8x1048576.size a
  hwx1_1 : ∀ i : grid1.Coords, EltTy.bits .f32 = 32 ∨ (Rect.block (s := S8x8x1048576) S1x8x131072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x8.size a ≤ S8x8x8.size a
  hwx1_2 : ∀ i : grid1.Coords, EltTy.bits .f32 = 32 ∨ (Rect.block (s := S8x8x8) S1x8x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x1.size a ≤ S8x8x1.size a
  hwx1_3 : ∀ i : grid1.Coords, EltTy.bits .f32 = 32 ∨ (Rect.block (s := S8x8x1) S1x8x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x131072.size a ≤ S8x8x1048576.size a
  hwx1_4 : ∀ i : grid1.Coords, EltTy.bits .f32 = 32 ∨ (Rect.block (s := S8x8x1048576) S1x8x131072.size (cc1_transform_4 i) (hinb1_4 i)).WholeWords (EltTy.packing .f32)

variable [Facts₀]

def dot_S8x131072_S8x131072_S8x8_1_1_0_0_n_n : DotDims S8x131072 S8x131072 S8x8 where
  lhsContracting := [1]
  rhsContracting := [1]
  lhsNonContracting := [0]
  rhsNonContracting := [0]
  lhsBatch := []
  rhsBatch := []
  wf := dot_S8x131072_S8x131072_S8x8_1_1_0_0_n_n_wf
def dot_S8x8_S8x131072_S8x131072_1_0_0_1_n_n : DotDims S8x8 S8x131072 S8x131072 where
  lhsContracting := [1]
  rhsContracting := [0]
  lhsNonContracting := [0]
  rhsNonContracting := [1]
  lhsBatch := []
  rhsBatch := []
  wf := dot_S8x8_S8x131072_S8x131072_1_0_0_1_n_n_wf

abbrev win0_0 : Pipeline.Window sig grid0 :=
  Pipeline.Window.ofSpec (Memref.whole main_arg1) S1x8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1x8x131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x8x131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x8x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x8x131072.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x8x1048576 : Shape := ⟨3, ![8, 8, 1048576]⟩
abbrev S8x8 : Shape := ⟨2, ![8, 8]⟩
abbrev S_ : Shape := ⟨0, ![]⟩
abbrev S8x8x8 : Shape := ⟨3, ![8, 8, 8]⟩
abbrev S8x8x1 : Shape := ⟨3, ![8, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x8x1048576, .f32⟩
  | .hbm, ⟨1, _⟩ => ⟨S8x8x1048576, .f32⟩
  | .hbm, ⟨2, _⟩ => ⟨S8x8, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x8x8, .f32⟩
  | .hbm, ⟨7, _⟩ => ⟨S8x8x8, .f32⟩
  | .hbm, ⟨8, _⟩ => ⟨S8x8x8, .f32⟩
  | .hbm, ⟨9, _⟩ => ⟨S_, .f32⟩
  | .hbm, ⟨10, _⟩ => ⟨S8x8, .f32⟩
  | .hbm, ⟨11, _⟩ => ⟨S_, .f32⟩
  | .hbm, ⟨12, _⟩ => ⟨S8x8, .f32⟩
  | .hbm, ⟨13, _⟩ => ⟨S8x8, .f32⟩
  | .hbm, ⟨14, _⟩ => ⟨S8x8x1, .f32⟩
  | .hbm, ⟨15, _⟩ => ⟨S8x8x8, .f32⟩
  | .hbm, ⟨16, _⟩ => ⟨S8x8x8, .f32⟩
  | .hbm, ⟨17, _⟩ => ⟨S8x8x8, .f32⟩
  | .hbm, ⟨18, _⟩ => ⟨S_, .f32⟩
  | .hbm, ⟨19, _⟩ => ⟨S8x8, .f32⟩
  | .hbm, ⟨20, _⟩ => ⟨S8x8x1, .f32⟩
  | .hbm, ⟨21, _⟩ => ⟨S8x8x8, .f32⟩
  | .hbm, ⟨22, _⟩ => ⟨S8x8x8, .f32⟩
  | .hbm, ⟨23, _⟩ => ⟨S8x8x1048576, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x8, .f32⟩
  | .hbm, ⟨28, _⟩ => ⟨S8x8, .f32⟩
  | .hbm, ⟨29, _⟩ => ⟨S_, .f32⟩
  | .hbm, ⟨30, _⟩ => ⟨S8x8, .f32⟩
  | .hbm, ⟨31, _⟩ => ⟨S8x8, .f32⟩
  | .hbm, ⟨32, _⟩ => ⟨S8x8x1, .f32⟩
  | .hbm, ⟨33, _⟩ => ⟨S8x8x1048576, .f32⟩
  | .hbm, ⟨34, _⟩ => ⟨S8x8x1048576, .f32⟩
  | .hbm, ⟨35, _⟩ => ⟨S8x8x1048576, .f32⟩
  | .hbm, ⟨36, _⟩ => ⟨S8x8x1048576, .f32⟩
  | _, _ => ⟨S8x8x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S8x8x8 : S_.BroadcastsInDim S8x8x8 (![] : Fin 0 → Fin S8x8x8.rank)
  reducesTo_S8x8x8_S8x8_d2 : S8x8x8.ReducesTo [2] S8x8
  h_S_ : 0 < S_.numel
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x8_0_1_2 : S8x8x1.BroadcastsInDim S8x8x8 (![0, 1, 2] : Fin 3 → Fin S8x8x8.rank)
  bcast_S8x8x1_S8x8x1048576_0_1_2 : S8x8x1.BroadcastsInDim S8x8x1048576 (![0, 1, 2] : Fin 3 → Fin S8x8x1048576.rank)
  dot_S8x8x1048576_S8x8x1048576_S8x8x8_2_2_1_1_0_0_wf : DotDims.WF S8x8x1048576 S8x8x1048576 S8x8x8 [2] [2] [1] [1] [0] [0]
  dot_S8x8x8_S8x8x1048576_S8x8x1048576_2_1_1_2_0_0_wf : DotDims.WF S8x8x8 S8x8x1048576 S8x8x1048576 [2] [1] [1] [2] [0] [0]

variable [Facts₀]

def dot_S8x8x1048576_S8x8x1048576_S8x8x8_2_2_1_1_0_0 : DotDims S8x8x1048576 S8x8x1048576 S8x8x8 where
  lhsContracting := [2]
  rhsContracting := [2]
  lhsNonContracting := [1]
  rhsNonContracting := [1]
  lhsBatch := [0]
  rhsBatch := [0]
  wf := dot_S8x8x1048576_S8x8x1048576_S8x8x8_2_2_1_1_0_0_wf
def dot_S8x8x8_S8x8x1048576_S8x8x1048576_2_1_1_2_0_0 : DotDims S8x8x8 S8x8x1048576 S8x8x1048576 where
  lhsContracting := [2]
  rhsContracting := [1]
  lhsNonContracting := [1]
  rhsNonContracting := [2]
  lhsBatch := [0]
  rhsBatch := [0]
  wf := dot_S8x8x8_S8x8x1048576_S8x8x1048576_2_1_1_2_0_0_wf

class Facts : Prop extends Facts₀ where

variable [Facts]
-- ==== Proof.Kernel.Base.lean ====
/-
  What both regions' frame proofs share. The program runs two kernels over the same 8 × 8 grid of points
  (layer l = t / 8, tile s = t % 8). The first accumulates, per layer, the 8 × 8 matrix of inner products of the
  layer's rows tile by tile in a scratch buffer: the buffer is zeroed at the tile 0 of each layer and the
  normalised result is stored into the output block only at tile 7. So its body has three control cases, decided
  here over the grid in closed form; its output window is idle, and not written back, except at tile 7. The second
  kernel has one case. Stated here as well: a window's block at a point read off the array the region finds, and
  that an input window's current staging buffer holds that block whether or not the point fetched it.
-/
import proofs.«106072_j11029476016525_2_alg».proof.Proof.Gen.Kernel.Launch
import proofs.«106072_j11029476016525_2_alg».proof.Proof.Gen.Kernel.Skeleton
import proofs.«106072_j11029476016525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when a region is entered: a parameter, instantiated per region by the run
variable (V : (c : Dev nD) → (b : Ref sig .tc) → Buf (Elt F) ((c : Thread nD τ).loc b))

/-! ## The first kernel's two conditions, over the grid -/

/-- "This is the first tile of the layer": the body's first branch, as it computes it from the point's second coordinate. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last tile of the layer": the body's second branch. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the first kernel's windows are idle -/

theorem live0_0 : ∀ t : Fin cfg0.N, cfg0.idle 0 (grid0.coords t) = false := by decide +kernel
theorem idle0_1 : ∀ t : Fin cfg0.N, ¬isLast (grid0.coords t) → cfg0.idle 1 (grid0.coords t) = true := by decide +kernel
theorem noFlush0_1 : ∀ t : Fin cfg0.N, ¬isLast (grid0.coords t) → (cfg0.win 1).flush t = false := by decide +kernel
theorem live0_1 : ∀ t : Fin cfg0.N, isLast (grid0.coords t) → cfg0.idle 1 (grid0.coords t) = false := by decide +kernel

/-! ## The staging memrefs as the pipeline passes them, and the scratch -/

abbrev ms0_0 (t : Fin cfg0.N) : Memref sig .tc .vmem S1x8x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x8 .f32 := win0_1.stage (cfg0.slots t 1)
abbrev hs0_1 (t : Fin cfg0.N) : (ms0_1 t).IsWhole := hstage0_1 ((cfg0.slots t 1).cast nbuf0_1)
/-- The accumulator: a whole scoped buffer of the first kernel's own. -/
abbrev accM : Memref sig .tc .vmem S8x8 .f32 := Memref.whole cc0_scratch0

abbrev ms1_0 (t : Fin cfg1.N) : Memref sig .tc .vmem S1x8x131072 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x131072 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x131072 .f32 := win1_4.stage (cfg1.slots t 4)
abbrev hs1_4 (t : Fin cfg1.N) : (ms1_4 t).IsWhole := hstage1_4 ((cfg1.slots t 4).cast nbuf1_4)

/-- What the first region's invariant holds besides the staging buffers: the accumulator at some contents, the other
    kernel's staging buffers, and the generator register. Split here into the accumulator and the rest. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem scoped0_split (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ otherScoped0 c) := by
  rw [scopedRest0_eq]; unfold otherScoped0; simp only [accM, owns_whole]; try rfl

/-! ## A window's block at a point, and the input windows' staging buffers -/

/-- Window w's block at point t of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.Kernel.GramRun.lean ====
/-
  The first kernel's body, run once per control case on whole staging memrefs. The accumulator buffer is
  written through one rectangle covering it, so what the body leaves there is its last store's payload:
  at the first tile of a layer the tile's product with its own transpose added to the zero matrix just stored, at
  the later tiles that product added to what the point before left; at the last tile the output block also
  receives the row-normalised exponentials of the scaled accumulator. The input block is left as found; at the
  other tiles the output's buffer is handed back as it came.
-/
import proofs.«106072_j11029476016525_2_alg».proof.Proof.Gen.Kernel.Launch
import proofs.«106072_j11029476016525_2_alg».proof.Proof.Gen.Kernel.Skeleton
import proofs.«106072_j11029476016525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.Kernel.Base
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- What the accumulator holds after a point's body: the tile's self-product added to what was there before
    (to the zero matrix at a first tile). -/
def accStep (x0 : Vec F S1x8x131072 .f32) (prev : Vec F S8x8 .f32) : Vec F S8x8 .f32 := k0_pay2 x0 prev

set_option maxHeartbeats 1000000 in
/-- First tile of a layer: the accumulator, at anything, ends at the tile's self-product added to zero. -/
theorem gram_first (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : isFirst i) (hl : ¬isLast i) (x0 : Vec F S1x8x131072 .f32) (x1 : Vec F S1x8x8 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (accStep x0 (k0_pay1 (F := F)))) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%f1, %hf1, H1⟩, ⟨%ds, %fs, -, HS⟩, Hk⟩
  obtain rfl := harg2.eq_unread hf0
  sl_exec (disch := first | exact hf | exact hl)
  sl_step
  iapply Hk
  isplitl [H0]
  · iexists _; isplitr; · ipureintro; exact harg2.read_unread _
    iexact H0
  isplitl [H1]
  · iexists f1; isplitr; · ipureintro; exact hf1
    iexact H1
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readCov_unit_zero _ zero2]

set_option maxHeartbeats 1000000 in
/-- A middle tile: the accumulator, at what the point before left, ends at the tile's self-product added to it. -/
theorem gram_mid (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : ¬isFirst i) (hl : ¬isLast i) (x0 : Vec F S1x8x131072 .f32) (x1 : Vec F S1x8x8 .f32) (xs : Vec F S8x8 .f32) (K : PUnit → sProp 𝕄) :
    iprop(owns (c : Thread nD τ) arg2 fullShare x0 ∗ owns (c : Thread nD τ) arg3 fullShare x1 ∗ owns (c : Thread nD τ) arg4 fullShare xs
        ∗ (iprop(owns (c : Thread nD τ) arg2 fullShare x0 ∗ owns (c : Thread nD τ) arg3 fullShare x1
            ∗ owns (c : Thread nD τ) arg4 fullShare (accStep x0 xs)) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%f1, %hf1, H1⟩, ⟨%fs, %hfs, HS⟩, Hk⟩
  obtain rfl := harg2.eq_unread hf0; obtain rfl := harg4.eq_unread hfs
  sl_exec (disch := first | exact hf | exact hl)
  sl_step
  iapply Hk
  isplitl [H0]
  · iexists _; isplitr; · ipureintro; exact harg2.read_unread _
    iexact H0
  isplitl [H1]
  · iexists f1; isplitr; · ipureintro; exact hf1
    iexact H1
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readAt_eq_ld, harg4.read_unread, View.ld_unit_zero zero2]

set_option maxHeartbeats 1000000 in
/-- The last tile of a layer: the accumulator as at a middle tile, and the output block at the row-normalised
    exponentials of the scaled accumulator. -/
theorem gram_last (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : ¬isFirst i) (hl : isLast i) (x0 : Vec F S1x8x131072 .f32) (xs : Vec F S8x8 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (accStep x0 xs))
            ∗ owns (c : Thread nD τ) arg4 fullShare (accStep x0 xs)) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_run_names
    refine (View.read_writes_eq_canon _ _ _ (fun y => ⟨_, List.mem_cons_self, View.mem_set_unit_zero zero3 Facts₀.inb_S1x8x8_S1x8x8_0_0_0 y⟩)).trans ?_
    rw [View.canon_cons_unit_zero zero3]
    unfold accStep
    rw [View.readCov_unit_zero _ zero2, View.readAt_eq_ld, harg2.read_unread, View.ld_unit_zero zero3, View.readAt_eq_ld, harg4.read_unread, View.ld_unit_zero zero2]
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readAt_eq_ld, harg4.read_unread, View.ld_unit_zero zero2]

end Cert.Kernel.Hand

end
-- ==== Proof.Kernel.GramDat.lean ====
/-
  The first region's proof data. The accumulator is carried from point to point: after the body at point n it holds the
  sum, over the tiles of n's layer up to n's, of the tile's self-product (the recursion below: restarted from the zero
  matrix at each layer's first tile). The region's invariant therefore tracks the accumulator buffer at that
  contents after every point — before the first point it is the class's (every scoped buffer at anything) —, the
  input window's buffer holds its block, and the output window's buffer is stored only at a layer's last tile, where
  it receives the normalised exponentials of the scaled accumulator; elsewhere it is idle and not written back.
-/
import proofs.«106072_j11029476016525_2_alg».proof.Proof.Gen.Kernel.Launch
import proofs.«106072_j11029476016525_2_alg».proof.Proof.Gen.Kernel.Skeleton
import proofs.«106072_j11029476016525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.Kernel.GramRun
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- The accumulator after the body at position n of the grid's order. -/
def accAt (c : Dev nD) : (n : ℕ) → n < cfg0.N → Vec F S8x8 .f32
  | 0, hn => accStep (iblk0 V c 0 ⟨0, hn⟩) (k0_pay1 (F := F))
  | n + 1, hn =>
    if (n + 1) % 8 = 0 then accStep (iblk0 V c 0 ⟨n + 1, hn⟩) (k0_pay1 (F := F))
    else accStep (iblk0 V c 0 ⟨n + 1, hn⟩) (accAt c n (Nat.lt_of_succ_lt hn))

theorem accAt_first (c : Dev nD) (t : Fin cfg0.N) (h : t.val % 8 = 0) :
    accAt V c t.val t.isLt = accStep (iblk0 V c 0 t) (k0_pay1 (F := F)) := by
  obtain ⟨n, hn⟩ := t
  cases n with
  | zero => rfl
  | succ n => exact if_pos h

theorem accAt_next (c : Dev nD) (t : Fin cfg0.N) (h : ¬t.val % 8 = 0) :
    accAt V c t.val t.isLt = accStep (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator tracked -/

/-- Before position n: the class's invariant before the first point; afterwards the accumulator at what the point
    before left, the other scoped buffers at anything, the generator register at some state. -/
def PhiS (c : Dev nD) : (n : ℕ) → n ≤ cfg0.N → sProp 𝕄
  | 0, _ => Pipeline.ΦA spec0 c
  | n + 1, hn => iprop(owns (c : Thread nD τ) accM fullShare (accAt V c n hn) ∗ otherScoped0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare (accAt V c n hn) ∗ otherScoped0 c ∗ (∃ r, prngReg c r)) := rfl

theorem PhiS_pos (c : Dev nD) (n : ℕ) (h : n ≤ cfg0.N) (hz : n ≠ 0) :
    PhiS V c n h = iprop(owns (c : Thread nD τ) accM fullShare (accAt V c (n - 1) (by omega)) ∗ otherScoped0 c ∗ (∃ r, prngReg c r)) := by
  cases n with
  | zero => exact absurd rfl hz
  | succ n => rfl

/-- The class's invariant, with the accumulator set apart. -/
theorem PhiA0_eq (c : Dev nD) :
    (Pipeline.ΦA spec0 c : sProp 𝕄) = iprop(((∃ d, owns (c : Thread nD τ) accM fullShare d) ∗ otherScoped0 c) ∗ (∃ r, prngReg c r)) := by
  unfold Pipeline.ΦA; rw [scoped0_split]

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: which case the point is in is read off the closed forms; the invariant hands the body the
    accumulator (at anything at the very first point, at what the point before left afterwards) and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  by_cases h7 : t.val % 8 = 7
  · -- a layer's last tile
    have h0 : ¬t.val % 8 = 0 := by omega
    have hz : t.val ≠ 0 := by omega
    rw [show (dat0 V c).leavesExact 1 t = owns (c : Thread nD τ) (ms0_1 t) fullShare ((dat0 V c).after 1 t) from by
      unfold Dat.leavesExact; rw [live0_1 t ((isLast_iff t).mpr h7)], after0_1]
    rw [accAt_next V c t h0, Phi0_castSucc V c t, PhiS_pos V c _ _ hz]
    iintro ⟨⟨HS, Hoth, Hg⟩, Ho, ⟨%d0, H0⟩, ⟨%d1, H1⟩⟩
    iapply (gram_last c Set.univ (grid0.coords t) (ms0_0 t) (hs0_0 t) (ms0_1 t) (hs0_1 t) accM (Memref.isWhole_whole _)
      (fun h => h0 ((isFirst_iff t).mp h)) ((isLast_iff t).mpr h7) (iblk0 V c 0 t) _ _)
    isplitl [H0]; · iexact H0
    isplitl [H1]; · iexists _; iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexact H1
  · rw [Dat.leavesExact_idle (dat0 V c) 1 t (idle0_1 t (fun h => h7 ((isLast_iff t).mp h))) (noFlush0_1 t (fun h => h7 ((isLast_iff t).mp h)))]
    by_cases h0 : t.val % 8 = 0
    · -- a layer's first tile
      rw [accAt_first V c t h0]
      by_cases hz : t.val = 0
      · rw [Phi0_castSucc V c t, PhiS_zero V c _ _ hz, PhiA0_eq]
        iintro ⟨⟨⟨HS, Hoth⟩, Hg⟩, Ho, ⟨%d0, H0⟩, ⟨%d1, H1⟩⟩
        iapply (gram_first c Set.univ (grid0.coords t) (ms0_0 t) (hs0_0 t) (ms0_1 t) (hs0_1 t) accM (Memref.isWhole_whole _)
          ((isFirst_iff t).mpr h0) (fun h => h7 ((isLast_iff t).mp h)) (iblk0 V c 0 t) _ _)
        isplitl [H0]; · iexact H0
        isplitl [H1]; · iexact H1
        isplitl [HS]; · iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        iexists _; iexact H1
      · rw [Phi0_castSucc V c t, PhiS_pos V c _ _ hz]
        iintro ⟨⟨HS, Hoth, Hg⟩, Ho, ⟨%d0, H0⟩, ⟨%d1, H1⟩⟩
        iapply (gram_first c Set.univ (grid0.coords t) (ms0_0 t) (hs0_0 t) (ms0_1 t) (hs0_1 t) accM (Memref.isWhole_whole _)
          ((isFirst_iff t).mpr h0) (fun h => h7 ((isLast_iff t).mp h)) (iblk0 V c 0 t) _ _)
        isplitl [H0]; · iexact H0
        isplitl [H1]; · iexact H1
        isplitl [HS]; · iexists _; iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        iexists _; iexact H1
    · -- a middle tile
      have hz : t.val ≠ 0 := by omega
      rw [accAt_next V c t h0, Phi0_castSucc V c t, PhiS_pos V c _ _ hz]
      iintro ⟨⟨HS, Hoth, Hg⟩, Ho, ⟨%d0, H0⟩, ⟨%d1, H1⟩⟩
      iapply (gram_mid c Set.univ (grid0.coords t) (ms0_0 t) (hs0_0 t) (ms0_1 t) (hs0_1 t) accM (Memref.isWhole_whole _)
        (fun h => h0 ((isFirst_iff t).mp h)) (fun h => h7 ((isLast_iff t).mp h)) (iblk0 V c 0 t) _ _ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem phi0_in (c : Dev nD) : Pipeline.ΦA spec0 c ⊢ (dat0 V c).Φ 0 := by
  rw [show (dat0 V c).Φ 0 = PhiS V c 0 (Nat.zero_le _) from rfl, PhiS_zero V c 0 _ rfl]

/-- After the last point the accumulator's named contents are forgotten: the class's invariant again. -/
theorem phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS, Hoth, Hg⟩
  isplitl [HS Hoth]
  · isplitl [HS]; · iexists _; iexact HS
    iexact Hoth
  iexact Hg

end Cert.Kernel.Hand

end
-- ==== Proof.Kernel.CombineRun.lean ====
/-
  The second kernel's body on whole staging memrefs: it loads its four input blocks (and, without using it, its output
  buffer), and stores through one rectangle covering the output buffer the sum of the last-parameters block with the
  deltas block plus the clipped-weight column times the product of the attention block with the deltas block.
-/
import proofs.«106072_j11029476016525_2_alg».proof.Proof.Gen.Kernel.Launch
import proofs.«106072_j11029476016525_2_alg».proof.Proof.Gen.Kernel.Skeleton
import proofs.«106072_j11029476016525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.Kernel.Base
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero3' : (![0, 0, 0] : Fin 3 → Nat) = fun _ => 0 := funext fun a => by fin_cases a <;> rfl

set_option maxHeartbeats 1000000 in
theorem combine_run (c : Dev nD) (E : Set ℕ) (i : grid1.Coords) (arg2 : Memref sig .tc .vmem S1x8x131072 .f32) (harg2 : arg2.IsWhole) (arg3 : Memref sig .tc .vmem S1x8x131072 .f32) (harg3 : arg3.IsWhole) (arg4 : Memref sig .tc .vmem S1x8x8 .f32) (harg4 : arg4.IsWhole) (arg5 : Memref sig .tc .vmem S1x8x1 .f32) (harg5 : arg5.IsWhole) (arg6 : Memref sig .tc .vmem S1x8x131072 .f32) (harg6 : arg6.IsWhole)
    (x0 : Vec F S1x8x131072 .f32) (x1 : Vec F S1x8x131072 .f32) (x2 : Vec F S1x8x8 .f32) (x3 : Vec F S1x8x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 x0 x2 x3 x1)) -∗ K ⟨⟩))
      ⊢ wp frame (wpE (defs₀ (F := F)) Variants.none c none) E (cc1_combine_kernel i arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (View.read_writes_eq_canon _ _ _ (fun y => ⟨_, List.mem_cons_self, View.mem_set_unit_zero zero3' Facts₀.inb_S1x8x131072_S1x8x131072_0_0_0 y⟩)).trans ?_
  rw [View.canon_cons_unit_zero zero3']
  rw [View.readAt_eq_ld, harg2.read_unread, View.ld_unit_zero zero3', View.readAt_eq_ld, harg4.read_unread, View.ld_unit_zero zero3',
    View.readAt_eq_ld, harg5.read_unread, View.ld_unit_zero zero3', View.readAt_eq_ld, harg3.read_unread, View.ld_unit_zero zero3']

end Cert.Kernel.Hand

end
-- ==== Proof.Kernel.CombineDat.lean ====
/-
  The second kernel's region: its proof data and its body obligation, at any float instance.

  The second kernel runs over the 8 × 8 grid with four input windows (the deltas block, the last-parameters block, the
  attention block, the clipped-beta column) and one output window. At every point the body reads the four input
  blocks from their current staging buffers and stores into the output's staging buffer the combined tile computed
  from them; it has a single control case. So the proof data say: each input window's buffer holds, after the body as
  before it, the window's block at the point read off the array the region finds; the output window's buffer holds the
  combined tile of those four blocks; the invariant is the untouched rest, nothing is owed, all shares are full. The
  body obligation at a point is then the body's triple applied to the four blocks.
-/
import proofs.«106072_j11029476016525_2_alg».proof.Proof.Kernel.CombineRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The proof data -/

/-- The proof data of the second pipeline on core c: the arrays as the region finds them; after the body at point t
    each input window's buffer at its block and the output window's at the combined tile of the four input blocks;
    the invariant the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 2 t) (iblk1 V c 3 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 2 t) (iblk1 V c 3 t) (iblk1 V c 1 t) := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, what the core owes, and the five windows' current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the input windows' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (combine_run c Set.univ (grid1.coords t) (ms1_0 t) (hs1_0 t) (ms1_1 t) (hs1_1 t) (ms1_2 t) (hs1_2 t)
    (ms1_3 t) (hs1_3 t) (ms1_4 t) (hs1_4 t) (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program run: the first kernel region, the host lines that clip the mixing weights and recast them as a
  column, the second kernel region. Between two items every unscoped buffer is held at a known contents: the launch
  memory, then with the attention array at what the first region's write-backs leave, then after each host line, then
  with the result array at what the second region's write-backs leave. Each region is entered from and left at these
  thread states: its arrays are split out of the unscoped buffers on entry and put back at their final contents on
  exit, the generator register passes through the region's invariant, nothing is owed and the kernels have no
  semaphores of their own. The run's post names the result array and says every argument array is as launched.
-/
import proofs.«106072_j11029476016525_2_alg».proof.Proof.Gen.Kernel.Launch
import proofs.«106072_j11029476016525_2_alg».proof.Proof.Gen.Kernel.Skeleton
import proofs.«106072_j11029476016525_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.Gen.Kernel.Regions
import proofs.«106072_j11029476016525_2_alg».proof.Proof.Kernel.GramDat
import proofs.«106072_j11029476016525_2_alg».proof.Proof.Kernel.CombineDat
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the region boundaries -/

/-- The launch memory read at core c's TensorCore references: what the first region finds. -/
abbrev Vin0 : (c : Dev nD) → (b : Ref sig .tc) → Buf (Elt F) ((c : Thread nD τ).loc b) := fun c b => V0 m c b

/-- After the first region: its arrays at what the pipeline leaves, every other buffer as launched. -/
def Wx0 (c : Dev nD) : Valuation τ sig (Elt F) :=
  Pipeline.withArrays spec0 c (V0 m c) fun w => (dat0 (Vin0 m) c).arrAt w cfg0.N

/-- What the first region leaves: the unknowns the thread states between the items are written over. -/
def outs0 : Outs (F := F) := fun _ r c => Wx0 m c (Proc.devRef .tc r)

/-- What the second region finds: the first region's exit contents, then the three host stretches. -/
abbrev Vin1 : (c : Dev nD) → (b : Ref sig .tc) → Buf (Elt F) ((c : Thread nD τ).loc b) := fun c b => V4 m (outs0 m) c b

/-- After the second region. -/
def Wx1 (c : Dev nD) : Valuation τ sig (Elt F) :=
  Pipeline.withArrays spec1 c (V4 m (outs0 m) c) fun w => (dat1 (Vin1 m) c).arrAt w cfg1.N

/-- What each region leaves in the buffers it may change: item 1 the first region's, item 5 the second's. -/
def outs : Outs (F := F) := fun J r c => if J = 1 then Wx0 m c (Proc.devRef .tc r) else Wx1 m c (Proc.devRef .tc r)

theorem outs_one (r : Ref sig .tc) (c : Dev nD) : outs m 1 r c = outs0 m 1 r c := rfl
theorem V1_outs (c : Dev nD) : V1 m (outs m) c = V1 m (outs0 m) c := rfl
theorem V4_outs (c : Dev nD) : V4 m (outs m) c = V4 m (outs0 m) c := rfl

theorem Wx0_arr (c : Dev nD) (w : Fin cfg0.W) :
    Wx0 m c (Proc.devRef .tc (Pipeline.arrRef spec0 w)) = (dat0 (Vin0 m) c).arrAt w cfg0.N := by
  unfold Wx0; exact Pipeline.withArrays_arr spec0 launch0.win.arr_inj c _ _ w
theorem Wx1_arr (c : Dev nD) (w : Fin cfg1.W) :
    Wx1 m c (Proc.devRef .tc (Pipeline.arrRef spec1 w)) = (dat1 (Vin1 m) c).arrAt w cfg1.N := by
  unfold Wx1; exact Pipeline.withArrays_arr spec1 launch1.win.arr_inj c _ _ w

/-- The attention array after the first region is what its write-backs leave. -/
theorem V1_att (c : Dev nD) : V1 m (outs m) c main_v0 = (dat0 (Vin0 m) c).arrAt 1 cfg0.N := by
  show Function.update (V0 m c) (Proc.devRef .tc main_v0) (outs m 1 main_v0 c) (Proc.devRef .tc main_v0) = _
  rw [Function.update_self]; exact Wx0_arr m c 1
/-- The result array after the second region is what its write-backs leave. -/
theorem V5_out (c : Dev nD) : V5 m (outs m) c main_v3 = (dat1 (Vin1 m) c).arrAt 4 cfg1.N := by
  show Function.update (V4 m (outs m) c) (Proc.devRef .tc main_v3) (outs m 5 main_v3 c) (Proc.devRef .tc main_v3) = _
  rw [Function.update_self]; exact Wx1_arr m c 4

/-- At the first region's exit each of its arrays holds what the pipeline leaves, every other buffer what it held. -/
theorem exit0_arr (c : Dev nD) (w : Fin cfg0.W) : (dat0 (Vin0 m) c).arrAt w cfg0.N = V1 m (outs m) c (Pipeline.arrRef spec0 w) := by
  match w with
  | ⟨0, _⟩ => exact ((dat0 (Vin0 m) c).arrAt_in 0 rfl _).trans ((A_eq0 (Vin0 m) c 0).trans (V1_of m (outs m) c main_arg1 (by decide)).symm)
  | ⟨1, _⟩ => exact (V1_att m c).symm
theorem exit0_rest (c : Dev nD) : ∀ b, b ∉ Finset.univ.image (Pipeline.arrRef spec0) → V1 m (outs m) c b = Vin0 m c b := fun b hb =>
  V1_of m (outs m) c b (by
    intro h; rw [List.mem_singleton] at h; subst h
    exact hb (Finset.mem_image.mpr ⟨1, Finset.mem_univ _, rfl⟩))

theorem exit1_arr (c : Dev nD) (w : Fin cfg1.W) : (dat1 (Vin1 m) c).arrAt w cfg1.N = V5 m (outs m) c (Pipeline.arrRef spec1 w) := by
  match w with
  | ⟨0, _⟩ => exact ((dat1 (Vin1 m) c).arrAt_in 0 rfl _).trans ((A_eq1 (Vin1 m) c 0).trans (V5_of m (outs m) c main_arg1 (by decide)).symm)
  | ⟨1, _⟩ => exact ((dat1 (Vin1 m) c).arrAt_in 1 rfl _).trans ((A_eq1 (Vin1 m) c 1).trans (V5_of m (outs m) c main_arg0 (by decide)).symm)
  | ⟨2, _⟩ => exact ((dat1 (Vin1 m) c).arrAt_in 2 rfl _).trans ((A_eq1 (Vin1 m) c 2).trans (V5_of m (outs m) c main_v0 (by decide)).symm)
  | ⟨3, _⟩ => exact ((dat1 (Vin1 m) c).arrAt_in 3 rfl _).trans ((A_eq1 (Vin1 m) c 3).trans (V5_of m (outs m) c main_v2 (by decide)).symm)
  | ⟨4, _⟩ => exact (V5_out m c).symm
theorem exit1_rest (c : Dev nD) : ∀ b, b ∉ Finset.univ.image (Pipeline.arrRef spec1) → V5 m (outs m) c b = Vin1 m c b := fun b hb =>
  V5_of m (outs m) c b (by
    intro h; rw [List.mem_singleton] at h; subst h
    exact hb (Finset.mem_image.mpr ⟨4, Finset.mem_univ _, rfl⟩))

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region: entered from the launch contents, left with the attention array at what it wrote back. The
    accumulator and the other scoped buffers go into its invariant with the generator register and come back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    have hΦ := phi0_out (Vin0 m) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents after the host lines, left with the result array at what it wrote
    back; its invariant is the class's. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V5 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records, with the result array read at the end -/

set_option backward.isDefEq.respectTransparency.types false in
/-- For any user algebra, level assignment, launch dues and ghost resources, any rest states the launch makes on every
    core at once and that end owing nothing, any contents the regions leave and any proof data: given per region a
    segment record entered from the thread state before it and left at the one after it, every weakly fair execution
    of the program from memory m with zero counters terminates, and every final memory holds the result array at the
    last thread state's contents and each argument as launched. -/
theorem cond_run {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v3) = V5 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => s.mem ((c.tc : Thread nD τ).loc main_v3) = V5 m outs c main_v3 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c)⟩
    · iexact HSI

set_option backward.isDefEq.respectTransparency.types false in
/-- THE RUN: every weakly fair execution terminates without a fault; the result array ends at what the second region's
    write-backs leave and the three argument arrays as launched. -/
theorem run_val : θ_run defs (onTc (τ := τ) (main (F := F))) ⟨m, fun _ => 0, ρ⟩ (fun r => ∀ c : Dev nD,
      r.2.mem ((c.tc : Thread nD τ).loc main_v3) = (dat1 (Vin1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := cond_run (F := F) m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hc : ∀ c : Dev nD, (iprop(unscopedSems0 c ∗ owes (c : Thread nD τ) (0 : CellTallies nD τ sig Unit) ∅ ∗ Pipeline.launchCred (fun _ => (0 : CellTallies nD τ sig Unit)) c ∗ prngReg c (ρ c) ∗ (BI.emp : sProp 𝕄)) : sProp 𝕄)
          ⊢ iprop((∃ r, prngReg c r) ∗ ∃ W, owes (c : Thread nD τ) (0 : CellTallies nD τ sig Unit) W) := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ (BI.emp : sProp 𝕄)))
          ⊢ (bigSep Finset.univ fun c : Dev nD => R (F := F) c : sProp 𝕄) := bigSep_mono fun c _ => hc c
      iintro ⟨H, -⟩
      imodintro
      iapply hm
      iexact H)
    (fun c => by iintro ⟨-, HO⟩; iexact HO)
    (reg0 m) (fun _ => .rfl) (fun _ => .rfl) (reg1 m) (fun _ => .rfl) (fun _ => .rfl)
  exact (θ_run defs _ _).mono (fun r h c => ⟨(h c).1.trans (V5_out m c), (h c).2⟩) h

end Cert.Kernel.Hand

end
-- ==== Proof.KernelIdeal.Base.lean ====
/-
  What both regions' frame proofs share. The program runs two kernels over the same 8 × 8 grid of points
  (layer l = t / 8, tile s = t % 8). The first accumulates, per layer, the 8 × 8 matrix of inner products of the
  layer's rows tile by tile in a scratch buffer: the buffer is zeroed at the tile 0 of each layer and the
  normalised result is stored into the output block only at tile 7. So its body has three control cases, decided
  here over the grid in closed form; its output window is idle, and not written back, except at tile 7. The second
  kernel has one case. Stated here as well: a window's block at a point read off the array the region finds, and
  that an input window's current staging buffer holds that block whether or not the point fetched it.
-/
import proofs.«106072_j11029476016525_2_alg».proof.Proof.Gen.KernelIdeal.Launch
import proofs.«106072_j11029476016525_2_alg».proof.Proof.Gen.KernelIdeal.Skeleton
import proofs.«106072_j11029476016525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when a region is entered: a parameter, instantiated per region by the run
variable (V : (c : Dev nD) → (b : Ref sig .tc) → Buf (Elt F) ((c : Thread nD τ).loc b))

/-! ## The first kernel's two conditions, over the grid -/

/-- "This is the first tile of the layer": the body's first branch, as it computes it from the point's second coordinate. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last tile of the layer": the body's second branch. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the first kernel's windows are idle -/

theorem live0_0 : ∀ t : Fin cfg0.N, cfg0.idle 0 (grid0.coords t) = false := by decide +kernel
theorem idle0_1 : ∀ t : Fin cfg0.N, ¬isLast (grid0.coords t) → cfg0.idle 1 (grid0.coords t) = true := by decide +kernel
theorem noFlush0_1 : ∀ t : Fin cfg0.N, ¬isLast (grid0.coords t) → (cfg0.win 1).flush t = false := by decide +kernel
theorem live0_1 : ∀ t : Fin cfg0.N, isLast (grid0.coords t) → cfg0.idle 1 (grid0.coords t) = false := by decide +kernel

/-! ## The staging memrefs as the pipeline passes them, and the scratch -/

abbrev ms0_0 (t : Fin cfg0.N) : Memref sig .tc .vmem S1x8x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x8 .f32 := win0_1.stage (cfg0.slots t 1)
abbrev hs0_1 (t : Fin cfg0.N) : (ms0_1 t).IsWhole := hstage0_1 ((cfg0.slots t 1).cast nbuf0_1)
/-- The accumulator: a whole scoped buffer of the first kernel's own. -/
abbrev accM : Memref sig .tc .vmem S8x8 .f32 := Memref.whole cc0_scratch0

abbrev ms1_0 (t : Fin cfg1.N) : Memref sig .tc .vmem S1x8x131072 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x131072 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x131072 .f32 := win1_4.stage (cfg1.slots t 4)
abbrev hs1_4 (t : Fin cfg1.N) : (ms1_4 t).IsWhole := hstage1_4 ((cfg1.slots t 4).cast nbuf1_4)

/-- What the first region's invariant holds besides the staging buffers: the accumulator at some contents, the other
    kernel's staging buffers, and the generator register. Split here into the accumulator and the rest. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem scoped0_split (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ otherScoped0 c) := by
  rw [scopedRest0_eq]; unfold otherScoped0; simp only [accM, owns_whole]; try rfl

/-! ## A window's block at a point, and the input windows' staging buffers -/

/-- Window w's block at point t of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KernelIdeal.GramRun.lean ====
/-
  The first kernel's body, run once per control case on whole staging memrefs. The accumulator buffer is
  written through one rectangle covering it, so what the body leaves there is its last store's payload:
  at the first tile of a layer the tile's product with its own transpose added to the zero matrix just stored, at
  the later tiles that product added to what the point before left; at the last tile the output block also
  receives the row-normalised exponentials of the scaled accumulator. The input block is left as found; at the
  other tiles the output's buffer is handed back as it came.
-/
import proofs.«106072_j11029476016525_2_alg».proof.Proof.Gen.KernelIdeal.Launch
import proofs.«106072_j11029476016525_2_alg».proof.Proof.Gen.KernelIdeal.Skeleton
import proofs.«106072_j11029476016525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.KernelIdeal.Base
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- What the accumulator holds after a point's body: the tile's self-product added to what was there before
    (to the zero matrix at a first tile). -/
def accStep (x0 : Vec F S1x8x131072 .f32) (prev : Vec F S8x8 .f32) : Vec F S8x8 .f32 := k0_pay2 x0 prev

set_option maxHeartbeats 1000000 in
/-- First tile of a layer: the accumulator, at anything, ends at the tile's self-product added to zero. -/
theorem gram_first (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : isFirst i) (hl : ¬isLast i) (x0 : Vec F S1x8x131072 .f32) (x1 : Vec F S1x8x8 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (accStep x0 (k0_pay1 (F := F)))) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%f1, %hf1, H1⟩, ⟨%ds, %fs, -, HS⟩, Hk⟩
  obtain rfl := harg2.eq_unread hf0
  sl_exec (disch := first | exact hf | exact hl)
  sl_step
  iapply Hk
  isplitl [H0]
  · iexists _; isplitr; · ipureintro; exact harg2.read_unread _
    iexact H0
  isplitl [H1]
  · iexists f1; isplitr; · ipureintro; exact hf1
    iexact H1
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readCov_unit_zero _ zero2]

set_option maxHeartbeats 1000000 in
/-- A middle tile: the accumulator, at what the point before left, ends at the tile's self-product added to it. -/
theorem gram_mid (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : ¬isFirst i) (hl : ¬isLast i) (x0 : Vec F S1x8x131072 .f32) (x1 : Vec F S1x8x8 .f32) (xs : Vec F S8x8 .f32) (K : PUnit → sProp 𝕄) :
    iprop(owns (c : Thread nD τ) arg2 fullShare x0 ∗ owns (c : Thread nD τ) arg3 fullShare x1 ∗ owns (c : Thread nD τ) arg4 fullShare xs
        ∗ (iprop(owns (c : Thread nD τ) arg2 fullShare x0 ∗ owns (c : Thread nD τ) arg3 fullShare x1
            ∗ owns (c : Thread nD τ) arg4 fullShare (accStep x0 xs)) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%f1, %hf1, H1⟩, ⟨%fs, %hfs, HS⟩, Hk⟩
  obtain rfl := harg2.eq_unread hf0; obtain rfl := harg4.eq_unread hfs
  sl_exec (disch := first | exact hf | exact hl)
  sl_step
  iapply Hk
  isplitl [H0]
  · iexists _; isplitr; · ipureintro; exact harg2.read_unread _
    iexact H0
  isplitl [H1]
  · iexists f1; isplitr; · ipureintro; exact hf1
    iexact H1
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readAt_eq_ld, harg4.read_unread, View.ld_unit_zero zero2]

set_option maxHeartbeats 1000000 in
/-- The last tile of a layer: the accumulator as at a middle tile, and the output block at the row-normalised
    exponentials of the scaled accumulator. -/
theorem gram_last (c : Dev nD) (E : Set ℕ) (i : grid0.Coords) (arg2 : Memref sig .tc .vmem S1x8x131072 .f32) (harg2 : arg2.IsWhole) (arg3 : Memref sig .tc .vmem S1x8x8 .f32) (harg3 : arg3.IsWhole) (arg4 : Memref sig .tc .vmem S8x8 .f32) (harg4 : arg4.IsWhole)
    (hf : ¬isFirst i) (hl : isLast i) (x0 : Vec F S1x8x131072 .f32) (xs : Vec F S8x8 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (accStep x0 xs))
            ∗ owns (c : Thread nD τ) arg4 fullShare (accStep x0 xs)) -∗ K ⟨⟩))
      ⊢ wp frame (wpE (defs₀ (F := F)) Variants.none c none) E (cc0_gram_kernel i arg2 harg2 arg3 harg3 arg4 harg4) K := by
  simp only [cc0_gram_kernel_eq_skeleton]; unfold cc0_gram_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_run_names
    refine (View.read_writes_eq_canon _ _ _ (fun y => ⟨_, List.mem_cons_self, View.mem_set_unit_zero zero3 Facts₀.inb_S1x8x8_S1x8x8_0_0_0 y⟩)).trans ?_
    rw [View.canon_cons_unit_zero zero3]
    unfold accStep
    rw [View.readCov_unit_zero _ zero2, View.readAt_eq_ld, harg2.read_unread, View.ld_unit_zero zero3, View.readAt_eq_ld, harg4.read_unread, View.ld_unit_zero zero2]
  iexists _; isplitr
  swap; · iexact HS
  ipureintro
  sl_unfold_run_names
  refine (View.read_writes_eq_canon _ _ _ (fun y => ⟨_, List.mem_cons_self, View.mem_set_unit_zero zero2 Facts₀.inb_S8x8_S8x8_0_0 y⟩)).trans ?_
  rw [View.canon_cons_unit_zero zero2]
  unfold accStep
  rw [View.readAt_eq_ld, harg2.read_unread, View.ld_unit_zero zero3, View.readAt_eq_ld, harg4.read_unread, View.ld_unit_zero zero2]

end Cert.KernelIdeal.Hand

end
-- ==== Proof.KernelIdeal.GramDat.lean ====
/-
  The first region's proof data. The accumulator is carried from point to point: after the body at point n it holds the
  sum, over the tiles of n's layer up to n's, of the tile's self-product (the recursion below: restarted from the zero
  matrix at each layer's first tile). The region's invariant therefore tracks the accumulator buffer at that
  contents after every point — before the first point it is the class's (every scoped buffer at anything) —, the
  input window's buffer holds its block, and the output window's buffer is stored only at a layer's last tile, where
  it receives the normalised exponentials of the scaled accumulator; elsewhere it is idle and not written back.
-/
import proofs.«106072_j11029476016525_2_alg».proof.Proof.Gen.KernelIdeal.Launch
import proofs.«106072_j11029476016525_2_alg».proof.Proof.Gen.KernelIdeal.Skeleton
import proofs.«106072_j11029476016525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.KernelIdeal.GramRun
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after each point -/

/-- The accumulator after the body at position n of the grid's order. -/
def accAt (c : Dev nD) : (n : ℕ) → n < cfg0.N → Vec F S8x8 .f32
  | 0, hn => accStep (iblk0 V c 0 ⟨0, hn⟩) (k0_pay1 (F := F))
  | n + 1, hn =>
    if (n + 1) % 8 = 0 then accStep (iblk0 V c 0 ⟨n + 1, hn⟩) (k0_pay1 (F := F))
    else accStep (iblk0 V c 0 ⟨n + 1, hn⟩) (accAt c n (Nat.lt_of_succ_lt hn))

theorem accAt_first (c : Dev nD) (t : Fin cfg0.N) (h : t.val % 8 = 0) :
    accAt V c t.val t.isLt = accStep (iblk0 V c 0 t) (k0_pay1 (F := F)) := by
  obtain ⟨n, hn⟩ := t
  cases n with
  | zero => rfl
  | succ n => exact if_pos h

theorem accAt_next (c : Dev nD) (t : Fin cfg0.N) (h : ¬t.val % 8 = 0) :
    accAt V c t.val t.isLt = accStep (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator tracked -/

/-- Before position n: the class's invariant before the first point; afterwards the accumulator at what the point
    before left, the other scoped buffers at anything, the generator register at some state. -/
def PhiS (c : Dev nD) : (n : ℕ) → n ≤ cfg0.N → sProp 𝕄
  | 0, _ => Pipeline.ΦA spec0 c
  | n + 1, hn => iprop(owns (c : Thread nD τ) accM fullShare (accAt V c n hn) ∗ otherScoped0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) accM fullShare (accAt V c n hn) ∗ otherScoped0 c ∗ (∃ r, prngReg c r)) := rfl

theorem PhiS_pos (c : Dev nD) (n : ℕ) (h : n ≤ cfg0.N) (hz : n ≠ 0) :
    PhiS V c n h = iprop(owns (c : Thread nD τ) accM fullShare (accAt V c (n - 1) (by omega)) ∗ otherScoped0 c ∗ (∃ r, prngReg c r)) := by
  cases n with
  | zero => exact absurd rfl hz
  | succ n => rfl

/-- The class's invariant, with the accumulator set apart. -/
theorem PhiA0_eq (c : Dev nD) :
    (Pipeline.ΦA spec0 c : sProp 𝕄) = iprop(((∃ d, owns (c : Thread nD τ) accM fullShare d) ∗ otherScoped0 c) ∗ (∃ r, prngReg c r)) := by
  unfold Pipeline.ΦA; rw [scoped0_split]

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: which case the point is in is read off the closed forms; the invariant hands the body the
    accumulator (at anything at the very first point, at what the point before left afterwards) and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  by_cases h7 : t.val % 8 = 7
  · -- a layer's last tile
    have h0 : ¬t.val % 8 = 0 := by omega
    have hz : t.val ≠ 0 := by omega
    rw [show (dat0 V c).leavesExact 1 t = owns (c : Thread nD τ) (ms0_1 t) fullShare ((dat0 V c).after 1 t) from by
      unfold Dat.leavesExact; rw [live0_1 t ((isLast_iff t).mpr h7)], after0_1]
    rw [accAt_next V c t h0, Phi0_castSucc V c t, PhiS_pos V c _ _ hz]
    iintro ⟨⟨HS, Hoth, Hg⟩, Ho, ⟨%d0, H0⟩, ⟨%d1, H1⟩⟩
    iapply (gram_last c Set.univ (grid0.coords t) (ms0_0 t) (hs0_0 t) (ms0_1 t) (hs0_1 t) accM (Memref.isWhole_whole _)
      (fun h => h0 ((isFirst_iff t).mp h)) ((isLast_iff t).mpr h7) (iblk0 V c 0 t) _ _)
    isplitl [H0]; · iexact H0
    isplitl [H1]; · iexists _; iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexact H1
  · rw [Dat.leavesExact_idle (dat0 V c) 1 t (idle0_1 t (fun h => h7 ((isLast_iff t).mp h))) (noFlush0_1 t (fun h => h7 ((isLast_iff t).mp h)))]
    by_cases h0 : t.val % 8 = 0
    · -- a layer's first tile
      rw [accAt_first V c t h0]
      by_cases hz : t.val = 0
      · rw [Phi0_castSucc V c t, PhiS_zero V c _ _ hz, PhiA0_eq]
        iintro ⟨⟨⟨HS, Hoth⟩, Hg⟩, Ho, ⟨%d0, H0⟩, ⟨%d1, H1⟩⟩
        iapply (gram_first c Set.univ (grid0.coords t) (ms0_0 t) (hs0_0 t) (ms0_1 t) (hs0_1 t) accM (Memref.isWhole_whole _)
          ((isFirst_iff t).mpr h0) (fun h => h7 ((isLast_iff t).mp h)) (iblk0 V c 0 t) _ _)
        isplitl [H0]; · iexact H0
        isplitl [H1]; · iexact H1
        isplitl [HS]; · iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        iexists _; iexact H1
      · rw [Phi0_castSucc V c t, PhiS_pos V c _ _ hz]
        iintro ⟨⟨HS, Hoth, Hg⟩, Ho, ⟨%d0, H0⟩, ⟨%d1, H1⟩⟩
        iapply (gram_first c Set.univ (grid0.coords t) (ms0_0 t) (hs0_0 t) (ms0_1 t) (hs0_1 t) accM (Memref.isWhole_whole _)
          ((isFirst_iff t).mpr h0) (fun h => h7 ((isLast_iff t).mp h)) (iblk0 V c 0 t) _ _)
        isplitl [H0]; · iexact H0
        isplitl [H1]; · iexact H1
        isplitl [HS]; · iexists _; iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        iexists _; iexact H1
    · -- a middle tile
      have hz : t.val ≠ 0 := by omega
      rw [accAt_next V c t h0, Phi0_castSucc V c t, PhiS_pos V c _ _ hz]
      iintro ⟨⟨HS, Hoth, Hg⟩, Ho, ⟨%d0, H0⟩, ⟨%d1, H1⟩⟩
      iapply (gram_mid c Set.univ (grid0.coords t) (ms0_0 t) (hs0_0 t) (ms0_1 t) (hs0_1 t) accM (Memref.isWhole_whole _)
        (fun h => h0 ((isFirst_iff t).mp h)) (fun h => h7 ((isLast_iff t).mp h)) (iblk0 V c 0 t) _ _ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem phi0_in (c : Dev nD) : Pipeline.ΦA spec0 c ⊢ (dat0 V c).Φ 0 := by
  rw [show (dat0 V c).Φ 0 = PhiS V c 0 (Nat.zero_le _) from rfl, PhiS_zero V c 0 _ rfl]

/-- After the last point the accumulator's named contents are forgotten: the class's invariant again. -/
theorem phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨HS, Hoth, Hg⟩
  isplitl [HS Hoth]
  · isplitl [HS]; · iexists _; iexact HS
    iexact Hoth
  iexact Hg

end Cert.KernelIdeal.Hand

end
-- ==== Proof.KernelIdeal.CombineRun.lean ====
/-
  The second kernel's body on whole staging memrefs: it loads its four input blocks (and, without using it, its output
  buffer), and stores through one rectangle covering the output buffer the sum of the last-parameters block with the
  deltas block plus the clipped-weight column times the product of the attention block with the deltas block.
-/
import proofs.«106072_j11029476016525_2_alg».proof.Proof.Gen.KernelIdeal.Launch
import proofs.«106072_j11029476016525_2_alg».proof.Proof.Gen.KernelIdeal.Skeleton
import proofs.«106072_j11029476016525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.KernelIdeal.Base
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero3' : (![0, 0, 0] : Fin 3 → Nat) = fun _ => 0 := funext fun a => by fin_cases a <;> rfl

set_option maxHeartbeats 1000000 in
theorem combine_run (c : Dev nD) (E : Set ℕ) (i : grid1.Coords) (arg2 : Memref sig .tc .vmem S1x8x131072 .f32) (harg2 : arg2.IsWhole) (arg3 : Memref sig .tc .vmem S1x8x131072 .f32) (harg3 : arg3.IsWhole) (arg4 : Memref sig .tc .vmem S1x8x8 .f32) (harg4 : arg4.IsWhole) (arg5 : Memref sig .tc .vmem S1x8x1 .f32) (harg5 : arg5.IsWhole) (arg6 : Memref sig .tc .vmem S1x8x131072 .f32) (harg6 : arg6.IsWhole)
    (x0 : Vec F S1x8x131072 .f32) (x1 : Vec F S1x8x131072 .f32) (x2 : Vec F S1x8x8 .f32) (x3 : Vec F S1x8x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 x0 x2 x3 x1)) -∗ K ⟨⟩))
      ⊢ wp frame (wpE (defs₀ (F := F)) Variants.none c none) E (cc1_combine_kernel i arg2 harg2 arg3 harg3 arg4 harg4 arg5 harg5 arg6 harg6) K := by
  simp only [cc1_combine_kernel_eq_skeleton]; unfold cc1_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (View.read_writes_eq_canon _ _ _ (fun y => ⟨_, List.mem_cons_self, View.mem_set_unit_zero zero3' Facts₀.inb_S1x8x131072_S1x8x131072_0_0_0 y⟩)).trans ?_
  rw [View.canon_cons_unit_zero zero3']
  rw [View.readAt_eq_ld, harg2.read_unread, View.ld_unit_zero zero3', View.readAt_eq_ld, harg4.read_unread, View.ld_unit_zero zero3',
    View.readAt_eq_ld, harg5.read_unread, View.ld_unit_zero zero3', View.readAt_eq_ld, harg3.read_unread, View.ld_unit_zero zero3']

end Cert.KernelIdeal.Hand

end
-- ==== Proof.KernelIdeal.CombineDat.lean ====
/-
  The second kernel's region: its proof data and its body obligation, at any float instance.

  The second kernel runs over the 8 × 8 grid with four input windows (the deltas block, the last-parameters block, the
  attention block, the clipped-beta column) and one output window. At every point the body reads the four input
  blocks from their current staging buffers and stores into the output's staging buffer the combined tile computed
  from them; it has a single control case. So the proof data say: each input window's buffer holds, after the body as
  before it, the window's block at the point read off the array the region finds; the output window's buffer holds the
  combined tile of those four blocks; the invariant is the untouched rest, nothing is owed, all shares are full. The
  body obligation at a point is then the body's triple applied to the four blocks.
-/
import proofs.«106072_j11029476016525_2_alg».proof.Proof.KernelIdeal.CombineRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The proof data -/

/-- The proof data of the second pipeline on core c: the arrays as the region finds them; after the body at point t
    each input window's buffer at its block and the output window's at the combined tile of the four input blocks;
    the invariant the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 2 t) (iblk1 V c 3 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 2 t) (iblk1 V c 3 t) (iblk1 V c 1 t) := by dsimp only [dat1]

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, what the core owes, and the five windows' current staging
    buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the input windows' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (combine_run c Set.univ (grid1.coords t) (ms1_0 t) (hs1_0 t) (ms1_1 t) (hs1_1 t) (ms1_2 t) (hs1_2 t)
    (ms1_3 t) (hs1_3 t) (ms1_4 t) (hs1_4 t) (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program run: the first kernel region, the host lines that clip the mixing weights and recast them as a
  column, the second kernel region. Between two items every unscoped buffer is held at a known contents: the launch
  memory, then with the attention array at what the first region's write-backs leave, then after each host line, then
  with the result array at what the second region's write-backs leave. Each region is entered from and left at these
  thread states: its arrays are split out of the unscoped buffers on entry and put back at their final contents on
  exit, the generator register passes through the region's invariant, nothing is owed and the kernels have no
  semaphores of their own. The run's post names the result array and says every argument array is as launched.
-/
import proofs.«106072_j11029476016525_2_alg».proof.Proof.Gen.KernelIdeal.Launch
import proofs.«106072_j11029476016525_2_alg».proof.Proof.Gen.KernelIdeal.Skeleton
import proofs.«106072_j11029476016525_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«106072_j11029476016525_2_alg».proof.Proof.Gen.KernelIdeal.Regions
import proofs.«106072_j11029476016525_2_alg».proof.Proof.KernelIdeal.GramDat
import proofs.«106072_j11029476016525_2_alg».proof.Proof.KernelIdeal.CombineDat
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the region boundaries -/

/-- The launch memory read at core c's TensorCore references: what the first region finds. -/
abbrev Vin0 : (c : Dev nD) → (b : Ref sig .tc) → Buf (Elt F) ((c : Thread nD τ).loc b) := fun c b => V0 m c b

/-- After the first region: its arrays at what the pipeline leaves, every other buffer as launched. -/
def Wx0 (c : Dev nD) : Valuation τ sig (Elt F) :=
  Pipeline.withArrays spec0 c (V0 m c) fun w => (dat0 (Vin0 m) c).arrAt w cfg0.N

/-- What the first region leaves: the unknowns the thread states between the items are written over. -/
def outs0 : Outs (F := F) := fun _ r c => Wx0 m c (Proc.devRef .tc r)

/-- What the second region finds: the first region's exit contents, then the three host stretches. -/
abbrev Vin1 : (c : Dev nD) → (b : Ref sig .tc) → Buf (Elt F) ((c : Thread nD τ).loc b) := fun c b => V4 m (outs0 m) c b

/-- After the second region. -/
def Wx1 (c : Dev nD) : Valuation τ sig (Elt F) :=
  Pipeline.withArrays spec1 c (V4 m (outs0 m) c) fun w => (dat1 (Vin1 m) c).arrAt w cfg1.N

/-- What each region leaves in the buffers it may change: item 1 the first region's, item 5 the second's. -/
def outs : Outs (F := F) := fun J r c => if J = 1 then Wx0 m c (Proc.devRef .tc r) else Wx1 m c (Proc.devRef .tc r)

theorem outs_one (r : Ref sig .tc) (c : Dev nD) : outs m 1 r c = outs0 m 1 r c := rfl
theorem V1_outs (c : Dev nD) : V1 m (outs m) c = V1 m (outs0 m) c := rfl
theorem V4_outs (c : Dev nD) : V4 m (outs m) c = V4 m (outs0 m) c := rfl

theorem Wx0_arr (c : Dev nD) (w : Fin cfg0.W) :
    Wx0 m c (Proc.devRef .tc (Pipeline.arrRef spec0 w)) = (dat0 (Vin0 m) c).arrAt w cfg0.N := by
  unfold Wx0; exact Pipeline.withArrays_arr spec0 launch0.win.arr_inj c _ _ w
theorem Wx1_arr (c : Dev nD) (w : Fin cfg1.W) :
    Wx1 m c (Proc.devRef .tc (Pipeline.arrRef spec1 w)) = (dat1 (Vin1 m) c).arrAt w cfg1.N := by
  unfold Wx1; exact Pipeline.withArrays_arr spec1 launch1.win.arr_inj c _ _ w

/-- The attention array after the first region is what its write-backs leave. -/
theorem V1_att (c : Dev nD) : V1 m (outs m) c main_v0 = (dat0 (Vin0 m) c).arrAt 1 cfg0.N := by
  show Function.update (V0 m c) (Proc.devRef .tc main_v0) (outs m 1 main_v0 c) (Proc.devRef .tc main_v0) = _
  rw [Function.update_self]; exact Wx0_arr m c 1
/-- The result array after the second region is what its write-backs leave. -/
theorem V5_out (c : Dev nD) : V5 m (outs m) c main_v3 = (dat1 (Vin1 m) c).arrAt 4 cfg1.N := by
  show Function.update (V4 m (outs m) c) (Proc.devRef .tc main_v3) (outs m 5 main_v3 c) (Proc.devRef .tc main_v3) = _
  rw [Function.update_self]; exact Wx1_arr m c 4

/-- At the first region's exit each of its arrays holds what the pipeline leaves, every other buffer what it held. -/
theorem exit0_arr (c : Dev nD) (w : Fin cfg0.W) : (dat0 (Vin0 m) c).arrAt w cfg0.N = V1 m (outs m) c (Pipeline.arrRef spec0 w) := by
  match w with
  | ⟨0, _⟩ => exact ((dat0 (Vin0 m) c).arrAt_in 0 rfl _).trans ((A_eq0 (Vin0 m) c 0).trans (V1_of m (outs m) c main_arg1 (by decide)).symm)
  | ⟨1, _⟩ => exact (V1_att m c).symm
theorem exit0_rest (c : Dev nD) : ∀ b, b ∉ Finset.univ.image (Pipeline.arrRef spec0) → V1 m (outs m) c b = Vin0 m c b := fun b hb =>
  V1_of m (outs m) c b (by
    intro h; rw [List.mem_singleton] at h; subst h
    exact hb (Finset.mem_image.mpr ⟨1, Finset.mem_univ _, rfl⟩))

theorem exit1_arr (c : Dev nD) (w : Fin cfg1.W) : (dat1 (Vin1 m) c).arrAt w cfg1.N = V5 m (outs m) c (Pipeline.arrRef spec1 w) := by
  match w with
  | ⟨0, _⟩ => exact ((dat1 (Vin1 m) c).arrAt_in 0 rfl _).trans ((A_eq1 (Vin1 m) c 0).trans (V5_of m (outs m) c main_arg1 (by decide)).symm)
  | ⟨1, _⟩ => exact ((dat1 (Vin1 m) c).arrAt_in 1 rfl _).trans ((A_eq1 (Vin1 m) c 1).trans (V5_of m (outs m) c main_arg0 (by decide)).symm)
  | ⟨2, _⟩ => exact ((dat1 (Vin1 m) c).arrAt_in 2 rfl _).trans ((A_eq1 (Vin1 m) c 2).trans (V5_of m (outs m) c main_v0 (by decide)).symm)
  | ⟨3, _⟩ => exact ((dat1 (Vin1 m) c).arrAt_in 3 rfl _).trans ((A_eq1 (Vin1 m) c 3).trans (V5_of m (outs m) c main_v2 (by decide)).symm)
  | ⟨4, _⟩ => exact (V5_out m c).symm
theorem exit1_rest (c : Dev nD) : ∀ b, b ∉ Finset.univ.image (Pipeline.arrRef spec1) → V5 m (outs m) c b = Vin1 m c b := fun b hb =>
  V5_of m (outs m) c b (by
    intro h; rw [List.mem_singleton] at h; subst h
    exact hb (Finset.mem_image.mpr ⟨4, Finset.mem_univ _, rfl⟩))

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0
/-- Beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region: entered from the launch contents, left with the attention array at what it wrote back. The
    accumulator and the other scoped buffers go into its invariant with the generator register and come back. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    have hΦ := phi0_out (Vin0 m) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents after the host lines, left with the result array at what it wrote
    back; its invariant is the class's. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V4_outs m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V5 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records, with the result array read at the end -/

set_option backward.isDefEq.respectTransparency.types false in
/-- For any user algebra, level assignment, launch dues and ghost resources, any rest states the launch makes on every
    core at once and that end owing nothing, any contents the regions leave and any proof data: given per region a
    segment record entered from the thread state before it and left at the one after it, every weakly fair execution
    of the program from memory m with zero counters terminates, and every final memory holds the result array at the
    last thread state's contents and each argument as launched. -/
theorem cond_run {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v3) = V5 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => s.mem ((c.tc : Thread nD τ).loc main_v3) = V5 m outs c main_v3 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c)⟩
    · iexact HSI

set_option backward.isDefEq.respectTransparency.types false in
/-- THE RUN: every weakly fair execution terminates without a fault; the result array ends at what the second region's
    write-backs leave and the three argument arrays as launched. -/
theorem run_val : θ_run defs (onTc (τ := τ) (main (F := F))) ⟨m, fun _ => 0, ρ⟩ (fun r => ∀ c : Dev nD,
      r.2.mem ((c.tc : Thread nD τ).loc main_v3) = (dat1 (Vin1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := cond_run (F := F) m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hc : ∀ c : Dev nD, (iprop(unscopedSems0 c ∗ owes (c : Thread nD τ) (0 : CellTallies nD τ sig Unit) ∅ ∗ Pipeline.launchCred (fun _ => (0 : CellTallies nD τ sig Unit)) c ∗ prngReg c (ρ c) ∗ (BI.emp : sProp 𝕄)) : sProp 𝕄)
          ⊢ iprop((∃ r, prngReg c r) ∗ ∃ W, owes (c : Thread nD τ) (0 : CellTallies nD τ sig Unit) W) := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ (BI.emp : sProp 𝕄)))
          ⊢ (bigSep Finset.univ fun c : Dev nD => R (F := F) c : sProp 𝕄) := bigSep_mono fun c _ => hc c
      iintro ⟨H, -⟩
      imodintro
      iapply hm
      iexact H)
    (fun c => by iintro ⟨-, HO⟩; iexact HO)
    (reg0 m) (fun _ => .rfl) (fun _ => .rfl) (reg1 m) (fun _ => .rfl) (fun _ => .rfl)
  exact (θ_run defs _ _).mono (fun r h c => ⟨(h c).1.trans (V5_out m c), (h c).2⟩) h

end Cert.KernelIdeal.Hand

end
-- ==== Proof.BlockGeom.lean ====
/-
  Where the blocks of the two grids' windows sit in their arrays.

  Both grids have 8 × 8 = 64 points; point t has layer t / 8 and tile t % 8. A window's block at a point sits, on every
  axis, at the block index times the block's extent plus the coordinate inside the block. For the windows over the
  8 × 8 × 1048576 arrays (blocks 1 × 8 × 131072, block index (layer, 0, tile)) the element j of the block at t is the array's
  element (t / 8, j 1, (t % 8) * 131072 + j 2); for the windows over the 8 × 8 × 8 and 8 × 8 × 1 arrays (blocks 1 × 8 × 8 and
  1 × 8 × 1, block index (layer, 0, 0)) it is (t / 8, j 1, j 2) and (t / 8, j 1, 0). Every index of the first grid's 8 × 8 × 8
  result is in the block of the last tile's point of its layer, the one that writes the block back; every index of the
  second grid's result is in the block of the point of its layer and of the tile its position falls in, and every point
  writes back.
-/
import proofs.«106072_j11029476016525_2_alg».proof.Proof.Gen.KernelIdeal.Launch
import proofs.«106072_j11029476016525_2_alg».proof.Proof.Gen.KernelIdeal.Points
import Idealize.ShloMosaic.Lib.Pipeline.Value
import Idealize.ShloMosaic.Lib.ValueIdx

noncomputable section

namespace Cert.KernelIdeal.Geom

open Idealize.ShloMosaic Idealize.ShloMosaic.ValueIdx Cert.KernelIdeal Cert.KernelIdeal.Gen
open Idealize.ShloMosaic.TcCoe Idealize.SL.Sem

/-! ## The first grid -/

/-- A point of the first grid is below 64. -/
theorem t_lt0 (t : Fin cfg0.N) : t.val < 64 := Nat.lt_of_lt_of_eq t.isLt N_0

/-- Window 0 of grid 0: the block index at point `t` is (layer, 0, tile) = (`t / 8`, 0, `t % 8`), decided over the 64 points. -/
theorem index0_0 : ∀ t : Fin cfg0.N, win0_0.index t (0 : Fin 3) = t.val / 8 ∧ win0_0.index t (1 : Fin 3) = 0
    ∧ win0_0.index t (2 : Fin 3) = t.val % 8 :=
  (by decide +kernel : ∀ t : Fin grid0.N, _)

/-- Window 0 of grid 0: the element `j` of the block at point `t` sits in its array at layer `t / 8`, row `j 1`,
    position `(t % 8) * 131072 + j 2`. -/
theorem emb0_0 (t : Fin cfg0.N) (j : ((cfg0.win 0).xblock (cfg0.grid.coords t)).Idx) :
    ((cfg0.win 0).blk t).view.emb j
      = ix3 (⟨t.val / 8, by have := t_lt0 t; omega⟩ : Fin 8) (⟨(j 1).val, (j 1).isLt⟩ : Fin 8)
          (⟨t.val % 8 * 131072 + (j 2).val, by have : (j 2).val < 131072 := (j 2).isLt; omega⟩ : Fin 1048576) := by
  obtain ⟨e0, e1, e2⟩ := index0_0 t
  funext a; apply Fin.ext
  match a with
  | ⟨0, _⟩ => show win0_0.index t (0 : Fin 3) * 1 + 1 * (j 0).val = t.val / 8; have hj : (j 0).val < 1 := (j 0).isLt; omega
  | ⟨1, _⟩ => show win0_0.index t (1 : Fin 3) * 8 + 1 * (j 1).val = (j 1).val; omega
  | ⟨2, _⟩ => show win0_0.index t (2 : Fin 3) * 131072 + 1 * (j 2).val = t.val % 8 * 131072 + (j 2).val; omega

/-- Window 1 of grid 0: the block index at point `t` is (layer, 0, 0) = (`t / 8`, 0, 0), decided over the 64 points. -/
theorem index0_1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- Window 1 of grid 0: the element `j` of the 8×8 block at point `t` sits in its array at layer `t / 8`, row `j 1`,
    column `j 2`. -/
theorem emb0_1 (t : Fin cfg0.N) (j : ((cfg0.win 1).xblock (cfg0.grid.coords t)).Idx) :
    ((cfg0.win 1).blk t).view.emb j
      = ix3 (⟨t.val / 8, by have := t_lt0 t; omega⟩ : Fin 8) (⟨(j 1).val, (j 1).isLt⟩ : Fin 8)
          (⟨(j 2).val, (j 2).isLt⟩ : Fin 8) := by
  obtain ⟨e0, e1, e2⟩ := index0_1 t
  funext a; apply Fin.ext
  match a with
  | ⟨0, _⟩ => show win0_1.index t (0 : Fin 3) * 1 + 1 * (j 0).val = t.val / 8; have hj : (j 0).val < 1 := (j 0).isLt; omega
  | ⟨1, _⟩ => show win0_1.index t (1 : Fin 3) * 8 + 1 * (j 1).val = (j 1).val; omega
  | ⟨2, _⟩ => show win0_1.index t (2 : Fin 3) * 8 + 1 * (j 2).val = (j 2).val; omega

/-- An index of the 8 × 8 × 8 result is in point `t`'s block iff each coordinate is in the block's range on its axis. -/
theorem mem_blk0_1 (t : Fin cfg0.N) (i : S8x8x8.Idx) :
    i ∈ ((cfg0.win 1).blk t).view.set ↔ ∀ a : Fin 3, win0_1.index t a * S1x8x8.size a ≤ (i a).val
      ∧ (i a).val < win0_1.index t a * S1x8x8.size a + S1x8x8.size a := by
  show i ∈ ((View.whole main_v0).slice (win0_1.rect t)).set ↔ _
  rw [View.set_slice_whole, Rect.mem_set_unit]
  exact Iff.rfl

/-- Every index of the 8 × 8 × 8 result is in the block of a point that writes back: the last tile's point of its layer. -/
theorem cover0_1_idx (i : S8x8x8.Idx) :
    ∃ t : Fin cfg0.N, (cfg0.win 1).flush t = true ∧ i ∈ ((cfg0.win 1).blk t).view.set := by
  have hi0 : (i 0).val < 8 := (i 0).isLt
  have hi1 : (i 1).val < 8 := (i 1).isLt
  have hi2 : (i 2).val < 8 := (i 2).isLt
  obtain ⟨t, htv⟩ : ∃ t : Fin cfg0.N, t.val = (i 0).val * 8 + 7 :=
    ⟨⟨(i 0).val * 8 + 7, Nat.lt_of_lt_of_eq (by omega : (i 0).val * 8 + 7 < 64) N_0.symm⟩, rfl⟩
  obtain ⟨e0, e1, e2⟩ := index0_1 t
  refine ⟨t, (flush0_1 t).2 (by omega), ?_⟩
  rw [mem_blk0_1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 8 ≤ (i 2).val ∧ (i 2).val < win0_1.index t (2 : Fin 3) * 8 + 8; omega

/-- The same, with the index typed as the array's buffer's on a core. -/
theorem cover0_1 (c : Dev nD) : ∀ i : ((cfg0.win 1).arr.view.loc (c.tc : Thread nD τ)).2.ty.Idx,
    ∃ t : Fin cfg0.N, (cfg0.win 1).flush t = true ∧ i ∈ ((cfg0.win 1).blk t).view.set :=
  fun i => cover0_1_idx i

/-! ## The second grid -/

/-- A point of the second grid is below 64. -/
theorem t_lt1 (t : Fin cfg1.N) : t.val < 64 := Nat.lt_of_lt_of_eq t.isLt N_1

/-- Window 0 of grid 1: the block index at point `t` is (layer, 0, tile) = (`t / 8`, 0, `t % 8`), decided over the 64 points. -/
theorem index1_0 : ∀ t : Fin cfg1.N, win1_0.index t (0 : Fin 3) = t.val / 8 ∧ win1_0.index t (1 : Fin 3) = 0
    ∧ win1_0.index t (2 : Fin 3) = t.val % 8 :=
  (by decide +kernel : ∀ t : Fin grid1.N, _)

/-- Window 0 of grid 1: the element `j` of the block at point `t` sits in its array at layer `t / 8`, row `j 1`,
    position `(t % 8) * 131072 + j 2`. -/
theorem emb1_0 (t : Fin cfg1.N) (j : ((cfg1.win 0).xblock (cfg1.grid.coords t)).Idx) :
    ((cfg1.win 0).blk t).view.emb j
      = ix3 (⟨t.val / 8, by have := t_lt1 t; omega⟩ : Fin 8) (⟨(j 1).val, (j 1).isLt⟩ : Fin 8)
          (⟨t.val % 8 * 131072 + (j 2).val, by have : (j 2).val < 131072 := (j 2).isLt; omega⟩ : Fin 1048576) := by
  obtain ⟨e0, e1, e2⟩ := index1_0 t
  funext a; apply Fin.ext
  match a with
  | ⟨0, _⟩ => show win1_0.index t (0 : Fin 3) * 1 + 1 * (j 0).val = t.val / 8; have hj : (j 0).val < 1 := (j 0).isLt; omega
  | ⟨1, _⟩ => show win1_0.index t (1 : Fin 3) * 8 + 1 * (j 1).val = (j 1).val; omega
  | ⟨2, _⟩ => show win1_0.index t (2 : Fin 3) * 131072 + 1 * (j 2).val = t.val % 8 * 131072 + (j 2).val; omega

/-- Window 1 of grid 1: the block index at point `t` is (layer, 0, tile) = (`t / 8`, 0, `t % 8`), decided over the 64 points. -/
theorem index1_1 : ∀ t : Fin cfg1.N, win1_1.index t (0 : Fin 3) = t.val / 8 ∧ win1_1.index t (1 : Fin 3) = 0
    ∧ win1_1.index t (2 : Fin 3) = t.val % 8 :=
  (by decide +kernel : ∀ t : Fin grid1.N, _)

/-- Window 1 of grid 1: the element `j` of the block at point `t` sits in its array at layer `t / 8`, row `j 1`,
    position `(t % 8) * 131072 + j 2`. -/
theorem emb1_1 (t : Fin cfg1.N) (j : ((cfg1.win 1).xblock (cfg1.grid.coords t)).Idx) :
    ((cfg1.win 1).blk t).view.emb j
      = ix3 (⟨t.val / 8, by have := t_lt1 t; omega⟩ : Fin 8) (⟨(j 1).val, (j 1).isLt⟩ : Fin 8)
          (⟨t.val % 8 * 131072 + (j 2).val, by have : (j 2).val < 131072 := (j 2).isLt; omega⟩ : Fin 1048576) := by
  obtain ⟨e0, e1, e2⟩ := index1_1 t
  funext a; apply Fin.ext
  match a with
  | ⟨0, _⟩ => show win1_1.index t (0 : Fin 3) * 1 + 1 * (j 0).val = t.val / 8; have hj : (j 0).val < 1 := (j 0).isLt; omega
  | ⟨1, _⟩ => show win1_1.index t (1 : Fin 3) * 8 + 1 * (j 1).val = (j 1).val; omega
  | ⟨2, _⟩ => show win1_1.index t (2 : Fin 3) * 131072 + 1 * (j 2).val = t.val % 8 * 131072 + (j 2).val; omega

/-- Window 2 of grid 1: the block index at point `t` is (layer, 0, 0) = (`t / 8`, 0, 0), decided over the 64 points. -/
theorem index1_2 : ∀ t : Fin cfg1.N, win1_2.index t (0 : Fin 3) = t.val / 8 ∧ win1_2.index t (1 : Fin 3) = 0
    ∧ win1_2.index t (2 : Fin 3) = 0 :=
  (by decide +kernel : ∀ t : Fin grid1.N, _)

/-- Window 2 of grid 1: the element `j` of the 8×8 block at point `t` sits in its array at layer `t / 8`, row `j 1`,
    column `j 2`. -/
theorem emb1_2 (t : Fin cfg1.N) (j : ((cfg1.win 2).xblock (cfg1.grid.coords t)).Idx) :
    ((cfg1.win 2).blk t).view.emb j
      = ix3 (⟨t.val / 8, by have := t_lt1 t; omega⟩ : Fin 8) (⟨(j 1).val, (j 1).isLt⟩ : Fin 8)
          (⟨(j 2).val, (j 2).isLt⟩ : Fin 8) := by
  obtain ⟨e0, e1, e2⟩ := index1_2 t
  funext a; apply Fin.ext
  match a with
  | ⟨0, _⟩ => show win1_2.index t (0 : Fin 3) * 1 + 1 * (j 0).val = t.val / 8; have hj : (j 0).val < 1 := (j 0).isLt; omega
  | ⟨1, _⟩ => show win1_2.index t (1 : Fin 3) * 8 + 1 * (j 1).val = (j 1).val; omega
  | ⟨2, _⟩ => show win1_2.index t (2 : Fin 3) * 8 + 1 * (j 2).val = (j 2).val; omega

/-- Window 3 of grid 1: the block index at point `t` is (layer, 0, 0) = (`t / 8`, 0, 0), decided over the 64 points. -/
theorem index1_3 : ∀ t : Fin cfg1.N, win1_3.index t (0 : Fin 3) = t.val / 8 ∧ win1_3.index t (1 : Fin 3) = 0
    ∧ win1_3.index t (2 : Fin 3) = 0 :=
  (by decide +kernel : ∀ t : Fin grid1.N, _)

/-- Window 3 of grid 1: the element `j` of the 8 × 1 block at point `t` sits in its array at layer `t / 8`, row `j 1`,
    column 0. -/
theorem emb1_3 (t : Fin cfg1.N) (j : ((cfg1.win 3).xblock (cfg1.grid.coords t)).Idx) :
    ((cfg1.win 3).blk t).view.emb j
      = ix3 (⟨t.val / 8, by have := t_lt1 t; omega⟩ : Fin 8) (⟨(j 1).val, (j 1).isLt⟩ : Fin 8) (0 : Fin 1) := by
  obtain ⟨e0, e1, e2⟩ := index1_3 t
  funext a; apply Fin.ext
  match a with
  | ⟨0, _⟩ => show win1_3.index t (0 : Fin 3) * 1 + 1 * (j 0).val = t.val / 8; have hj : (j 0).val < 1 := (j 0).isLt; omega
  | ⟨1, _⟩ => show win1_3.index t (1 : Fin 3) * 8 + 1 * (j 1).val = (j 1).val; omega
  | ⟨2, _⟩ => show win1_3.index t (2 : Fin 3) * 1 + 1 * (j 2).val = 0; have hj : (j 2).val < 1 := (j 2).isLt; omega

/-- Window 4 of grid 1: the block index at point `t` is (layer, 0, tile) = (`t / 8`, 0, `t % 8`), decided over the 64 points. -/
theorem index1_4 : ∀ t : Fin cfg1.N, win1_4.index t (0 : Fin 3) = t.val / 8 ∧ win1_4.index t (1 : Fin 3) = 0
    ∧ win1_4.index t (2 : Fin 3) = t.val % 8 :=
  (by decide +kernel : ∀ t : Fin grid1.N, _)

/-- Window 4 of grid 1: the element `j` of the block at point `t` sits in its array at layer `t / 8`, row `j 1`,
    position `(t % 8) * 131072 + j 2`. -/
theorem emb1_4 (t : Fin cfg1.N) (j : ((cfg1.win 4).xblock (cfg1.grid.coords t)).Idx) :
    ((cfg1.win 4).blk t).view.emb j
      = ix3 (⟨t.val / 8, by have := t_lt1 t; omega⟩ : Fin 8) (⟨(j 1).val, (j 1).isLt⟩ : Fin 8)
          (⟨t.val % 8 * 131072 + (j 2).val, by have : (j 2).val < 131072 := (j 2).isLt; omega⟩ : Fin 1048576) := by
  obtain ⟨e0, e1, e2⟩ := index1_4 t
  funext a; apply Fin.ext
  match a with
  | ⟨0, _⟩ => show win1_4.index t (0 : Fin 3) * 1 + 1 * (j 0).val = t.val / 8; have hj : (j 0).val < 1 := (j 0).isLt; omega
  | ⟨1, _⟩ => show win1_4.index t (1 : Fin 3) * 8 + 1 * (j 1).val = (j 1).val; omega
  | ⟨2, _⟩ => show win1_4.index t (2 : Fin 3) * 131072 + 1 * (j 2).val = t.val % 8 * 131072 + (j 2).val; omega

/-- An index of the 8 × 8 × 1048576 result is in point `t`'s block iff each coordinate is in the block's range on its axis. -/
theorem mem_blk1_4 (t : Fin cfg1.N) (i : S8x8x1048576.Idx) :
    i ∈ ((cfg1.win 4).blk t).view.set ↔ ∀ a : Fin 3, win1_4.index t a * S1x8x131072.size a ≤ (i a).val
      ∧ (i a).val < win1_4.index t a * S1x8x131072.size a + S1x8x131072.size a := by
  show i ∈ ((View.whole main_v3).slice (win1_4.rect t)).set ↔ _
  rw [View.set_slice_whole, Rect.mem_set_unit]
  exact Iff.rfl

/-- Every index of the 8 × 8 × 1048576 result is in the block of a point that writes back: the point of its layer and of
    the tile its position falls in. -/
theorem cover1_4_idx (i : S8x8x1048576.Idx) :
    ∃ t : Fin cfg1.N, (cfg1.win 4).flush t = true ∧ i ∈ ((cfg1.win 4).blk t).view.set := by
  have hi0 : (i 0).val < 8 := (i 0).isLt
  have hi1 : (i 1).val < 8 := (i 1).isLt
  have hi2 : (i 2).val < 1048576 := (i 2).isLt
  obtain ⟨t, htv⟩ : ∃ t : Fin cfg1.N, t.val = (i 0).val * 8 + (i 2).val / 131072 :=
    ⟨⟨(i 0).val * 8 + (i 2).val / 131072,
      Nat.lt_of_lt_of_eq (by omega : (i 0).val * 8 + (i 2).val / 131072 < 64) N_1.symm⟩, rfl⟩
  obtain ⟨e0, e1, e2⟩ := index1_4 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 8 ≤ (i 1).val ∧ (i 1).val < win1_4.index t (1 : Fin 3) * 8 + 8; omega
  | ⟨2, _⟩ => show win1_4.index t (2 : Fin 3) * 131072 ≤ (i 2).val ∧ (i 2).val < win1_4.index t (2 : Fin 3) * 131072 + 131072; omega

/-- The same, with the index typed as the array's buffer's on a core. -/
theorem cover1_4 (c : Dev nD) : ∀ i : ((cfg1.win 4).arr.view.loc (c.tc : Thread nD τ)).2.ty.Idx,
    ∃ t : Fin cfg1.N, (cfg1.win 4).flush t = true ∧ i ∈ ((cfg1.win 4).blk t).view.set :=
  fun i => cover1_4_idx i

end Cert.KernelIdeal.Geom

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibTileNT.lean ====
/-
  A two-dimensional tile times the transpose of another, read at an index, at the ideal values.

  The product of an m×k tile by the transpose of an n×k tile — both operands contracted along their columns, no batch
  axes — accumulated into the zero tile is, entry by entry, the sum over the contracted coordinate of the products of
  the entries: the entry (a, b) is the sum over c of A (a, c) * B (b, c). The statement is for the dimension numbers as a
  record over any extents; a program's own record is one of these at its literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by the transpose of an n×k tile (both operands contracted on their columns, no batch
    axes) into the zero tile, read at (a, b): the sum over the contracted coordinate c of A (a, c) * B (b, c). -/
theorem matmul_nt_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.TileOps

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.PayTiles.lean ====
/-
  The kernel tiles read at an index, at the ideal values.

  Three pure values the two kernel bodies store, each read at an index written by its coordinates:
  * the zero splat is 0 everywhere;
  * the accumulated Gram tile: with its leading unit axis dropped, the 8×131072 tile X is multiplied by its own
    transpose (both operands contracted along their columns) into the zero tile and added to the accumulator, so the
    entry (p, q) is acc (p, q) + Σ_n X (p, n) * X (q, n);
  * the combined tile: an 8×8 tile A times the 8×131072 tile D into the zero tile, scaled row by row by a column b,
    added to D and then to a fourth tile, so the entry (k, n) is lp (k, n) + (D (k, n) + b k * Σ_j A (k, j) * D (j, n)).
  The additions and products stand in the order the bodies compute them; no commutativity is used.
-/
import Idealize.ShloMosaic.PureOps.Ideal.Laws
import Idealize.ShloMosaic.Lib.ValueIdx
import Idealize.ShloMosaic.Lib.ValueLayout
import Idealize.ShloMosaic.Lib.Pipeline.Value
import proofs.«106072_j11029476016525_2_alg».proof.Proof.Gen.KernelIdeal.Skeleton
import proofs.«106072_j11029476016525_2_alg».proof.Proof.LibTileOps
import proofs.«106072_j11029476016525_2_alg».proof.Proof.LibTileNT
import proofs.«106072_j11029476016525_2_alg».proof.Proof.LibColForm

noncomputable section

open scoped BigOperators

namespace Cert.KernelIdeal.Pay

open Idealize.ShloMosaic Idealize.ShloMosaic.ValueIdx Cert.KernelIdeal Cert.KernelIdeal.Gen

variable [Cert.KernelIdeal.Facts]

/-- The zero splat reads 0 at every entry: a whole-shape cast of a shape to itself is the identity, and the zero word is
    the real 0. -/
theorem pay1_apply (p q : Fin 8) : k0_pay1 (F := Ideal) (ix2 p q) = 0 := by
  unfold k0_pay1
  rw [shapeCast_self]
  exact Ideal.ofBits_zero_f32

/-- The 8×8 by 8×131072 product (left operand contracted on its columns, right on its rows) into the zero tile, read at
    (k, n): the sum over j of A (k, j) * B (j, n). -/
theorem mm_plain_apply (A : FVec Ideal S8x8 .f32) (B : FVec Ideal S8x131072 .f32) (k : Fin 8) (n : Fin 131072) :
    matmul dot_S8x8_S8x131072_S8x131072_1_0_0_1_n_n (some .fp32) A B (constant S8x131072 .f32 0x00000000#32) (ix2 k n)
      = ∑ j : Fin 8, A (ix2 k j) * B (ix2 j n) :=
  TileOps.matmul_zero_apply (m := 8) (k := 8) (n := 131072)
    Facts₀.dot_S8x8_S8x131072_S8x131072_1_0_0_1_n_n_wf (some .fp32) A B k n

/-- The combined tile at (0, k, n): the casts that drop or add the leading unit axis keep the trailing coordinates, the
    column b stretched along the rows reads its entry k, and the product into the zero tile is the sum over j. -/
theorem k1_pay1_apply (d : Vec Ideal S1x8x131072 .f32) (a : Vec Ideal S1x8x8 .f32) (b : Vec Ideal S1x8x1 .f32)
    (lp : Vec Ideal S1x8x131072 .f32) (k : Fin 8) (n : Fin 131072) :
    k1_pay1 d a b lp (ix3 (0 : Fin 1) k n)
      = lp (ix3 (0 : Fin 1) k n) + (d (ix3 (0 : Fin 1) k n)
          + b (ix3 (0 : Fin 1) k (0 : Fin 1)) * ∑ j : Fin 8, a (ix3 (0 : Fin 1) k j) * d (ix3 (0 : Fin 1) j n)) := by
  unfold k1_pay1
  rw [shapeCast_ab_1ab_apply, addf_apply, addf_apply, mulf_apply, mm_plain_apply, Cert.ColForm.broadcastCol_apply]
  simp only [shapeCast_1ab_ab_apply]

/-- The 8×131072 tile times the transpose of an 8×131072 tile into the zero tile, read at (p, q). -/
theorem mm_nt_apply (A B : FVec Ideal S8x131072 .f32) (p q : Fin 8) :
    matmul dot_S8x131072_S8x131072_S8x8_1_1_0_0_n_n (some .fp32) A B (constant S8x8 .f32 0x00000000#32) (ix2 p q)
      = ∑ n : Fin 131072, A (ix2 p n) * B (ix2 q n) :=
  TileOps.matmul_nt_zero_apply (m := 8) (k := 131072) (n := 8)
    Facts₀.dot_S8x131072_S8x131072_S8x8_1_1_0_0_n_n_wf (some .fp32) A B p q

/-- The accumulated Gram tile at (p, q): the accumulator there plus the sum over n of X (0, p, n) * X (0, q, n). -/
theorem pay2_apply (x : Vec Ideal S1x8x131072 .f32) (acc : Vec Ideal S8x8 .f32) (p q : Fin 8) :
    k0_pay2 x acc (ix2 p q)
      = acc (ix2 p q) + ∑ n : Fin 131072, x (ix3 (0 : Fin 1) p n) * x (ix3 (0 : Fin 1) q n) := by
  unfold k0_pay2
  rw [shapeCast_self, addf_apply, mm_nt_apply]
  simp only [shapeCast_1ab_ab_apply]

end Cert.KernelIdeal.Pay

end
-- ==== Proof.LibSumBlocks.lean ====
/-
  A sum over a * b positions, regrouped into a consecutive blocks of b positions.

  In any additive commutative monoid, the sum over the a * b positions n of f n is the sum over the blocks s < a of the
  sums over the positions y < b of f (s * b + y): position s * b + y is the y-th position of block s, and every position
  is of that form exactly once.
-/
import Mathlib.Algebra.BigOperators.Fin
import Mathlib.Logic.Equiv.Fin.Basic

open scoped BigOperators

namespace Cert.SumBlocks

/-- A sum over `a * b` positions, regrouped as `a` consecutive blocks of `b` positions: position `s * b + y` is the
    `y`-th position of block `s`. -/
theorem sum_blocks {M : Type*} [AddCommMonoid M] (a b : Nat) (f : Fin (a * b) → M) :
    (∑ n : Fin (a * b), f n) = ∑ s : Fin a, ∑ y : Fin b,
      f ⟨s.val * b + y.val, Nat.lt_of_lt_of_le (Nat.add_lt_add_left y.isLt _)
        (by rw [← Nat.succ_mul]; exact Nat.mul_le_mul_right _ s.isLt)⟩ := by
  rw [← Equiv.sum_comp finProdFinEquiv f, Fintype.sum_prod_type]
  refine Finset.sum_congr rfl fun s _ => Finset.sum_congr rfl fun y _ => ?_
  refine congrArg f (Fin.ext ?_)
  show y.val + b * s.val = s.val * b + y.val
  rw [Nat.mul_comm, Nat.add_comm]

end Cert.SumBlocks
-- ==== Proof.RefRead.lean ====
/-
  The reference program read at an index, for the three places the value comparison needs.

  * A sum over 1048576 = 8 * 131072 positions is the sum over the 8 consecutive blocks of the sums over the 131072
    positions of each block (position s * 131072 + y is the y-th of block s).
  * The first contraction (the Gram matrix of the rows of D within a batch l): its entry (p, q) is the sum over the
    positions n of D(l, p, n) * D(l, q, n).
  * The result at (l, k, n) is P(l, k, n) + (D(l, k, n) + g(l, k) * sum over j of A(l, k, j) * D(l, j, n)), where A is the
    normalised weight matrix (kept folded) and g the clipped gate stretched along a unit axis (kept folded).
-/
import proofs.«106072_j11029476016525_2_alg».proof.Proof.Gen.ReferenceIdeal.Read
import Idealize.ShloMosaic.Lib.ValueIdx
import Idealize.ShloMosaic.PureOps.Ideal.Laws
import proofs.«106072_j11029476016525_2_alg».proof.Proof.LibSumBlocks

noncomputable section

open scoped BigOperators

namespace Cert.ReferenceIdeal.RefRead

open Idealize.ShloMosaic Idealize.ShloMosaic.ValueIdx Cert.ReferenceIdeal Cert.ReferenceIdeal.Read

/-- The sum over the 1048576 positions is the sum over the 8 blocks of 131072 consecutive positions. -/
theorem sum_tiles (f : Fin 1048576 → EReal) :
    (∑ n : Fin 1048576, f n) = ∑ s : Fin 8, ∑ y : Fin 131072,
      f ⟨s.val * 131072 + y.val, by have := s.isLt; have := y.isLt; omega⟩ :=
  Cert.SumBlocks.sum_blocks 8 131072 f

/-- The Gram entry (p, q) of batch l: the sum over the positions of the products of rows p and q. -/
theorem gram_apply (D : (⟨S8x8x1048576, .f32⟩ : BufTy).Contents (Elt Ideal)) (l p q : Fin 8) :
    val_main_v1 (F := Ideal) D (ix3 l p q) = ∑ n : Fin 1048576, D (ix3 l p n) * D (ix3 l q n) := by
  refine (val_main_v1_apply D (ix3 l p q)).trans ?_
  refine Finset.sum_congr rfl fun n _ => ?_
  have el : lidx_main_v1 (ix3 l p q) n = ix3 l p n := funext fun a => Fin.ext (by
    match a with
    | ⟨0, _⟩ => rfl
    | ⟨1, _⟩ => rfl
    | ⟨2, _⟩ => rfl)
  have er : ridx_main_v1 (ix3 l p q) n = ix3 l q n := funext fun a => Fin.ext (by
    match a with
    | ⟨0, _⟩ => rfl
    | ⟨1, _⟩ => rfl
    | ⟨2, _⟩ => rfl)
  rw [el, er]

/-- The result at (l, k, n): the first input plus (the second input plus the gate times the weighted sum of the
    second input's rows). The weight matrix and the gate stay folded. -/
theorem out_apply (P D : (⟨S8x8x1048576, .f32⟩ : BufTy).Contents (Elt Ideal))
    (Bt : (⟨S8x8, .f32⟩ : BufTy).Contents (Elt Ideal)) (l k : Fin 8) (n : Fin 1048576) :
    val_main_v21 (F := Ideal) P D Bt (ix3 l k n)
      = P (ix3 l k n) + (D (ix3 l k n) + val_main_v17 (F := Ideal) Bt (ix3 l k (0 : Fin 1))
          * ∑ j : Fin 8, val_main_v14 (F := Ideal) D (ix3 l k j) * D (ix3 l j n)) := by
  have e18 : idx_main_v18 (ix3 l k n) = ix3 l k (0 : Fin 1) := funext fun a => Fin.ext (by
    match a with
    | ⟨0, _⟩ => rfl
    | ⟨1, _⟩ => rfl
    | ⟨2, _⟩ => rfl)
  have el : ∀ j : Fin 8, lidx_main_v15 (ix3 l k n) j = ix3 l k j := fun j => funext fun a => Fin.ext (by
    match a with
    | ⟨0, _⟩ => rfl
    | ⟨1, _⟩ => rfl
    | ⟨2, _⟩ => rfl)
  have er : ∀ j : Fin 8, ridx_main_v15 (ix3 l k n) j = ix3 l j n := fun j => funext fun a => Fin.ext (by
    match a with
    | ⟨0, _⟩ => rfl
    | ⟨1, _⟩ => rfl
    | ⟨2, _⟩ => rfl)
  rw [val_main_v21_apply, val_main_v20_apply, val_main_v19_apply, val_main_v18_apply, val_main_v15_apply, e18,
    Ideal.addf_def, Ideal.addf_def, Ideal.mulf_def]
  simp only [el, er]

end Cert.ReferenceIdeal.RefRead

end
-- ==== Proof.BridgeTiles.lean ====
/-
  The kernel tiles set beside the reference, at the ideal values.

  * The combined tile. At tile s of layer l, when the loaded blocks are the blocks of the arguments (d and lp the
    positions s * 131072 + y of rows k of D and P, A the normalised weights of layer l, b the gate column of layer l),
    the stored tile's entry (k, y) is the reference's result at (l, k, s * 131072 + y): both are
    P + (D + g * sum over j of A(k, j) * D(j, .)), term by term.
  * The Gram accumulator. Starting from the zero tile and adding, tile after tile, the inner products of the rows over
    the tile's 131072 positions, the accumulator after the eighth tile of layer l holds at (p, q) the sum over the eight
    tiles of the tile's inner product of rows p and q, which is the sum over all 1048576 positions: the reference's
    contraction. Only the laws of a commutative additive monoid are used.
-/
import proofs.«106072_j11029476016525_2_alg».proof.Proof.PayTiles
import proofs.«106072_j11029476016525_2_alg».proof.Proof.RefRead
import Mathlib.Algebra.BigOperators.Fin

noncomputable section

open scoped BigOperators

namespace Cert.Bridge.Tiles

open Idealize.ShloMosaic Idealize.ShloMosaic.ValueIdx

/-- The stored combined tile at (0, k, y) is the reference's result at (l, k, s * 131072 + y), when the four loaded blocks
    are the blocks of the reference's operands at layer l and tile s. -/
theorem combine_match (P D : (⟨Cert.ReferenceIdeal.S8x8x1048576, .f32⟩ : BufTy).Contents (Elt Ideal))
    (Bt : (⟨Cert.ReferenceIdeal.S8x8, .f32⟩ : BufTy).Contents (Elt Ideal)) (l s : Fin 8)
    (d lp : Vec Ideal Cert.KernelIdeal.S1x8x131072 .f32) (A : Vec Ideal Cert.KernelIdeal.S1x8x8 .f32)
    (b : Vec Ideal Cert.KernelIdeal.S1x8x1 .f32)
    (hd : ∀ (k : Fin 8) (y : Fin 131072), d (ix3 (0 : Fin 1) k y)
      = D (ix3 l k ⟨s.val * 131072 + y.val, by have := s.isLt; have := y.isLt; omega⟩))
    (hlp : ∀ (k : Fin 8) (y : Fin 131072), lp (ix3 (0 : Fin 1) k y)
      = P (ix3 l k ⟨s.val * 131072 + y.val, by have := s.isLt; have := y.isLt; omega⟩))
    (hat : ∀ k j : Fin 8, A (ix3 (0 : Fin 1) k j) = Cert.ReferenceIdeal.Read.val_main_v14 (F := Ideal) D (ix3 l k j))
    (hb : ∀ k : Fin 8, b (ix3 (0 : Fin 1) k (0 : Fin 1))
      = Cert.ReferenceIdeal.Read.val_main_v17 (F := Ideal) Bt (ix3 l k (0 : Fin 1)))
    (k : Fin 8) (y : Fin 131072) :
    Cert.KernelIdeal.Gen.k1_pay1 d A b lp (ix3 (0 : Fin 1) k y)
      = Cert.ReferenceIdeal.Read.val_main_v21 (F := Ideal) P D Bt
          (ix3 l k ⟨s.val * 131072 + y.val, by have := s.isLt; have := y.isLt; omega⟩) := by
  rw [Cert.KernelIdeal.Pay.k1_pay1_apply, Cert.ReferenceIdeal.RefRead.out_apply, hlp, hd, hb]
  refine congrArg (fun z => _ + (_ + _ * z)) (Finset.sum_congr rfl fun j _ => ?_)
  rw [hat, hd]

/-- The inner product of rows p and q of layer l over the 131072 positions of tile s. -/
def tileDot (D : (⟨Cert.ReferenceIdeal.S8x8x1048576, .f32⟩ : BufTy).Contents (Elt Ideal)) (l p q s : Fin 8) :
    Elt Ideal .f32 :=
  ∑ y : Fin 131072,
    D (ix3 l p ⟨s.val * 131072 + y.val, by have := s.isLt; have := y.isLt; omega⟩)
      * D (ix3 l q ⟨s.val * 131072 + y.val, by have := s.isLt; have := y.isLt; omega⟩)

/-- The reference's contraction at (l, p, q) is the sum over the eight tiles of the tiles' inner products. -/
theorem gram_eq_sum_tileDot (D : (⟨Cert.ReferenceIdeal.S8x8x1048576, .f32⟩ : BufTy).Contents (Elt Ideal))
    (l p q : Fin 8) :
    Cert.ReferenceIdeal.Read.val_main_v1 (F := Ideal) D (ix3 l p q) = ∑ s : Fin 8, tileDot D l p q s :=
  (Cert.ReferenceIdeal.RefRead.gram_apply D l p q).trans
    (Cert.ReferenceIdeal.RefRead.sum_tiles fun n => D (ix3 l p n) * D (ix3 l q n))

/-- The accumulator after the eighth tile of layer l is the layer's whole inner-product matrix. -/
theorem gram_from_tiles (D : (⟨Cert.ReferenceIdeal.S8x8x1048576, .f32⟩ : BufTy).Contents (Elt Ideal)) (l : Fin 8)
    (X : Fin 8 → Vec Ideal Cert.KernelIdeal.S1x8x131072 .f32) (a : Fin 8 → Vec Ideal Cert.KernelIdeal.S8x8 .f32)
    (hX : ∀ (r p : Fin 8) (y : Fin 131072), X r (ix3 (0 : Fin 1) p y)
      = D (ix3 l p ⟨r.val * 131072 + y.val, by have := r.isLt; have := y.isLt; omega⟩))
    (h0 : a 0 = Cert.KernelIdeal.Gen.k0_pay2 (X 0) (Cert.KernelIdeal.Gen.k0_pay1 (F := Ideal)))
    (hs : ∀ r : Fin 7, a r.succ = Cert.KernelIdeal.Gen.k0_pay2 (X r.succ) (a r.castSucc)) (p q : Fin 8) :
    a 7 (ix2 p q) = Cert.ReferenceIdeal.Read.val_main_v1 (F := Ideal) D (ix3 l p q) := by
  -- one tile's step: the accumulator's entry plus the tile's inner product
  have step : ∀ (r : Fin 8) (acc : Vec Ideal Cert.KernelIdeal.S8x8 .f32),
      Cert.KernelIdeal.Gen.k0_pay2 (X r) acc (ix2 p q) = acc (ix2 p q) + tileDot D l p q r := fun r acc => by
    rw [Cert.KernelIdeal.Pay.pay2_apply]
    refine congrArg (acc (ix2 p q) + ·) (Finset.sum_congr rfl fun y _ => ?_)
    rw [hX, hX]
  have e0 : a 0 (ix2 p q) = 0 + tileDot D l p q 0 := by
    rw [h0, step, Cert.KernelIdeal.Pay.pay1_apply]
  have e1 : a 1 (ix2 p q) = a 0 (ix2 p q) + tileDot D l p q 1 := by
    rw [show a 1 = Cert.KernelIdeal.Gen.k0_pay2 (X 1) (a 0) from hs 0, step]
  have e2 : a 2 (ix2 p q) = a 1 (ix2 p q) + tileDot D l p q 2 := by
    rw [show a 2 = Cert.KernelIdeal.Gen.k0_pay2 (X 2) (a 1) from hs 1, step]
  have e3 : a 3 (ix2 p q) = a 2 (ix2 p q) + tileDot D l p q 3 := by
    rw [show a 3 = Cert.KernelIdeal.Gen.k0_pay2 (X 3) (a 2) from hs 2, step]
  have e4 : a 4 (ix2 p q) = a 3 (ix2 p q) + tileDot D l p q 4 := by
    rw [show a 4 = Cert.KernelIdeal.Gen.k0_pay2 (X 4) (a 3) from hs 3, step]
  have e5 : a 5 (ix2 p q) = a 4 (ix2 p q) + tileDot D l p q 5 := by
    rw [show a 5 = Cert.KernelIdeal.Gen.k0_pay2 (X 5) (a 4) from hs 4, step]
  have e6 : a 6 (ix2 p q) = a 5 (ix2 p q) + tileDot D l p q 6 := by
    rw [show a 6 = Cert.KernelIdeal.Gen.k0_pay2 (X 6) (a 5) from hs 5, step]
  have e7 : a 7 (ix2 p q) = a 6 (ix2 p q) + tileDot D l p q 7 := by
    rw [show a 7 = Cert.KernelIdeal.Gen.k0_pay2 (X 7) (a 6) from hs 6, step]
  rw [gram_eq_sum_tileDot, Fin.sum_univ_eight, e7, e6, e5, e4, e3, e2, e1, e0, zero_add]

end Cert.Bridge.Tiles

end
-- ==== Proof.LibLaneSum.lean ====
/-
  A sum along the second axis of a two-dimensional tile, read at a row.

  The float add-reduction of an m×n tile over its second axis, at the ideal values, holds at row p the finite sum of
  the row's n entries; the accumulator word is the zero word, the sum's neutral element, and does not appear.
-/
import Idealize.ShloMosaic.PureOps.Ideal.Laws
import Idealize.ShloMosaic.Lib.ValueIdx

noncomputable section

open scoped BigOperators

namespace Idealize.ShloMosaic.LaneSum

open Idealize.ShloMosaic.ValueIdx

/-- The add-reduction over axis 1 of an m×n tile, read at row p: the sum over j of the entries (p, j). -/
theorem laneSum_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ) (p : Fin m) :
    multiReduction .add [(1 : Fin 2)] ⟨1, ![m]⟩ src 0x00000000#32 h hφ hacc (ix1 p) = ∑ j : Fin n, src (ix2 p j) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

end Idealize.ShloMosaic.LaneSum

end
-- ==== Proof.SoftmaxRows.lean ====
/-
  The row softmax of a scaled 8×8 Gram tile, entry by entry, at the ideal values.

  The scale: the power (2^20)^(-1/2) is 2^(-10); the three words are 1048576, -1/2 and 1/1024 exactly.

  The softmax: with z the tile of scaled logits, row p of the result is exp (z p q - M p) / (sum over r of exp (z p r - M p)),
  where M p is the maximum of -infinity and the fold of max from -infinity over the row's eight entries. A program that reduces
  a two-dimensional tile along its second axis and a program that reduces a three-dimensional array along its third axis
  compute, stage by stage, the same function of the scaled logits: the scaled logits agree entry by entry, hence the row
  maxima (the same fold over the same eight values from the same initial value), the shifted entries, their exponentials,
  the row sums and the quotients.
-/
import proofs.«106072_j11029476016525_2_alg».proof.Proof.Gen.KernelIdeal.Skeleton
import proofs.«106072_j11029476016525_2_alg».proof.Proof.Gen.ReferenceIdeal.Read
import proofs.«106072_j11029476016525_2_alg».proof.Proof.LibColForm
import proofs.«106072_j11029476016525_2_alg».proof.Proof.LibLaneSum
import Idealize.ShloMosaic.Lib.ValueLayout

noncomputable section

open scoped BigOperators

namespace Cert.Bridge.Softmax

open Idealize.ShloMosaic Idealize.ShloMosaic.ValueIdx

variable [Cert.KernelIdeal.Facts] [Cert.ReferenceIdeal.Facts]

/-! ## The scale -/

/-- The word 0x49800000 is 2^20 = 1048576. -/
theorem word_big : Ideal.ofBits .f32 0x49800000#32 = ((1048576 : ℝ) : EReal) := by
  simp [Ideal.ofBits, Ideal.ieee, -EReal.coe_mul]; norm_num

/-- The word 0xBF000000 is -1/2. -/
theorem word_neg_half : Ideal.ofBits .f32 0xBF000000#32 = ((-(1 / 2) : ℝ) : EReal) := by
  simp [Ideal.ofBits, Ideal.ieee, -EReal.coe_mul]; norm_num

/-- The word 0x3A800000 is 2^(-10) = 1/1024. -/
theorem word_small : Ideal.ofBits .f32 0x3A800000#32 = ((1 / 1024 : ℝ) : EReal) := by
  simp [Ideal.ofBits, Ideal.ieee, -EReal.coe_mul]; norm_num

/-- (2^20)^(-1/2) = 2^(-10): the power of the two finite words is the third word. -/
theorem scale_eq : FloatOps.hostPowf (F := Ideal) (φ := .f32) (FloatOps.ofBits .f32 0x49800000#32) (FloatOps.ofBits .f32 0xBF000000#32) = FloatOps.ofBits .f32 0x3A800000#32 := by
  rw [Ideal.hostPowf_def, Ideal.ofBits_def, Ideal.ofBits_def, Ideal.ofBits_def, word_big, word_neg_half, word_small,
    Ideal.pow_coe_coe]
  congr 1
  rw [show (1048576 : ℝ) = 2 ^ (20 : ℝ) by norm_num, Real.rpow_eq_pow, ← Real.rpow_mul (by norm_num)]
  norm_num

/-! ## The row softmax as a function of the scaled logits -/

/-- The row maximum as both programs take it: the maximum of -infinity and the fold of max from -infinity over the row. -/
def rowMax (Z : Fin 8 → Fin 8 → EReal) (p : Fin 8) : EReal :=
  max (Ideal.ofBits .f32 0xFF800000#32)
    ((Finset.univ : Finset (Fin 8)).fold max (Ideal.ofBits .f32 0xFF800000#32) (fun r => Z p r))

/-- The exponential of an entry shifted by its row's maximum. -/
def rowExp (Z : Fin 8 → Fin 8 → EReal) (p r : Fin 8) : EReal := Ideal.exp (Z p r - rowMax Z p)

/-- The row softmax: the shifted exponential over the sum of the row's shifted exponentials. -/
def rowSoftmax (Z : Fin 8 → Fin 8 → EReal) (p q : Fin 8) : EReal :=
  Ideal.div (rowExp Z p q) (∑ r : Fin 8, rowExp Z p r)

/-! ## The tile program's stages -/

/-- A vector of length m recast as a column and stretched to m×n reads, at (a, b), the vector's entry a. -/
theorem colStretch_apply {α : Type} {m n : Nat} (v : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (a : Fin m) (b : Fin n) :
    broadcastTo ⟨2, ![m, n]⟩ (shapeCast (⟨2, ![m, 1]⟩ : Shape) v hc) hb (ix2 a b) = v (ix1 a) :=
  (Cert.ColForm.broadcastCol_apply _ hb a b).trans (Cert.ColForm.col_of_reshape v hc a)

/-- The max-reduction over axis 1 of an m×n tile from the -infinity word, read at row p: the fold of max from that
    word's value over the row's entries. -/
theorem laneMax_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0xFF800000#32 : BitVec FTy.f32.bits) = FKind.maximumf.neutral FTy.f32 hφ) (p : Fin m) :
    multiReduction .maximumf [(1 : Fin 2)] ⟨1, ![m]⟩ src 0xFF800000#32 h hφ hacc (ix1 p)
      = (Finset.univ : Finset (Fin n)).fold max (Ideal.ofBits .f32 0xFF800000#32) (fun j => src (ix2 p j)) := by
  refine (Ideal.multiReduction_maximumf_single src 0xFF800000#32 h hφ hacc (ix1 p)).trans ?_
  refine congrArg (fun f => (Finset.univ : Finset (Fin n)).fold max (Ideal.ofBits .f32 0xFF800000#32) f)
    (funext fun k => congrArg src (funext fun c => Fin.ext ?_))
  rw [h.lift_val]
  match c with
  | ⟨0, _⟩ => simp [Shape.Reduces.liftVal]
  | ⟨1, _⟩ => simp [Shape.Reduces.liftVal]

/-- The stretched column of row maxima of a tile z, read at (a, b): the row maximum of row a. -/
theorem tile_max (z : FVec Ideal ⟨2, ![8, 8]⟩ .f32) (Z : Fin 8 → Fin 8 → EReal) (hz : ∀ a b : Fin 8, z (ix2 a b) = Z a b)
    (h : (⟨2, ![8, 8]⟩ : Shape).Reduces [(1 : Fin 2)] ⟨1, ![8]⟩) (hφ : FKind.Formats FTy.f32)
    (hacc : (0xFF800000#32 : BitVec FTy.f32.bits) = FKind.maximumf.neutral FTy.f32 hφ)
    (hc : (⟨1, ![8]⟩ : Shape).ShapeCasts ⟨2, ![8, 1]⟩) (hb : (⟨2, ![8, 1]⟩ : Shape).Broadcasts ⟨2, ![8, 8]⟩)
    (a b : Fin 8) :
    broadcastTo ⟨2, ![8, 8]⟩
        (shapeCast (⟨2, ![8, 1]⟩ : Shape)
          (maximumf (broadcast (⟨1, ![8]⟩ : Shape) (FloatOps.ofBits (F := Ideal) .f32 0xFF800000#32))
            (multiReduction .maximumf [(1 : Fin 2)] ⟨1, ![8]⟩ z 0xFF800000#32 h hφ hacc)) hc) hb (ix2 a b)
      = rowMax Z a := by
  refine (colStretch_apply _ hc hb a b).trans ?_
  unfold rowMax
  refine congrArg (max (Ideal.ofBits .f32 0xFF800000#32)) ((laneMax_apply z h hφ hacc a).trans ?_)
  exact congrArg (fun f => (Finset.univ : Finset (Fin 8)).fold max (Ideal.ofBits .f32 0xFF800000#32) f)
    (funext fun r => hz a r)

/-- The exponential of a tile minus a tile of row maxima, read at (p, r). -/
theorem tile_exp (z M : FVec Ideal ⟨2, ![8, 8]⟩ .f32) (Z : Fin 8 → Fin 8 → EReal) (hz : ∀ a b : Fin 8, z (ix2 a b) = Z a b)
    (hM : ∀ a b : Fin 8, M (ix2 a b) = rowMax Z a) (p r : Fin 8) :
    exp (subf z M) (ix2 p r) = rowExp Z p r := by
  show Ideal.exp (z (ix2 p r) - M (ix2 p r)) = Ideal.exp (Z p r - rowMax Z p)
  rw [hz, hM]

/-- The quotient of a tile of shifted exponentials by a tile of their row sums, read at (p, q). -/
theorem tile_quot (E B : FVec Ideal ⟨2, ![8, 8]⟩ .f32) (Z : Fin 8 → Fin 8 → EReal)
    (hE : ∀ a b : Fin 8, E (ix2 a b) = rowExp Z a b) (hB : ∀ a b : Fin 8, B (ix2 a b) = ∑ r : Fin 8, rowExp Z a r)
    (p q : Fin 8) : divf E B (ix2 p q) = rowSoftmax Z p q := by
  show Ideal.div (E (ix2 p q)) (B (ix2 p q)) = Ideal.div (rowExp Z p q) (∑ r : Fin 8, rowExp Z p r)
  rw [hE, hB]

/-- The tile program's payload, read at (0, p, q): the row softmax of the tile scaled by the word 0x3A800000. -/
theorem kernel_softmax (s : Vec Ideal Cert.KernelIdeal.S8x8 .f32) (p q : Fin 8) :
    Cert.KernelIdeal.Gen.k0_pay3 s (ix3 (0 : Fin 1) p q)
      = rowSoftmax (fun a b => s (ix2 a b) * Ideal.ofBits .f32 0x3A800000#32) p q := by
  unfold Cert.KernelIdeal.Gen.k0_pay3
  refine (shapeCast_ab_1ab_apply _ _ (0 : Fin 1) p q).trans ?_
  refine tile_quot _ _ _ (fun a b => ?_) (fun a b => ?_) p q
  · exact tile_exp _ _ _ (fun _ _ => rfl) (fun a' b' => tile_max _ _ (fun _ _ => rfl) _ _ _ _ _ a' b') a b
  · refine (colStretch_apply _ _ _ a b).trans ((LaneSum.laneSum_apply _ _ _ _ a).trans ?_)
    exact Finset.sum_congr rfl fun r _ =>
      tile_exp _ _ _ (fun _ _ => rfl) (fun a' b' => tile_max _ _ (fun _ _ => rfl) _ _ _ _ _ a' b') a r

/-! ## The array program's stages -/

/-- The host's reduce with a maximum body over axis 2 of an a×b×n array, read at (l, p): the fold of max from the
    initial value over the n entries (l, p, ·). -/
theorem hostLaneMax_apply {a b n : Nat} (x : FVec Ideal ⟨3, ![a, b, n]⟩ .f32) (init : FVec Ideal ⟨0, ![]⟩ .f32)
    (h' : (⟨3, ![a, b, n]⟩ : Shape).ReducesTo [(2 : Fin 3)] ⟨2, ![a, b]⟩)
    (h : (⟨3, ![a, b, n]⟩ : Shape).Reduces [(2 : Fin 3)] ⟨2, ![a, b]⟩) (hu : 0 < (⟨0, ![]⟩ : Shape).numel)
    (l : Fin a) (p : Fin b) :
    Host.reduce FloatOps.maximumf x init h' hu (ix2 l p)
      = (Finset.univ : Finset (Fin n)).fold max (init (Shape.Idx.first hu)) (fun r => x (ix3 l p r)) := by
  refine (Host.reduce_eq_fold_single FloatOps.maximumf x init h' h hu (ix2 l p)).trans ?_
  refine congrArg (fun f => (Finset.univ : Finset (Fin n)).fold max (init (Shape.Idx.first hu)) f)
    (funext fun k => congrArg x (funext fun c => Fin.ext ?_))
  rw [h.lift_val]
  match c with
  | ⟨0, _⟩ => simp [Shape.Reduces.liftVal]
  | ⟨1, _⟩ => simp [Shape.Reduces.liftVal]
  | ⟨2, _⟩ => simp [Shape.Reduces.liftVal]

/-- The array program's scaled logits of layer l. -/
def refZ (D : (⟨Cert.ReferenceIdeal.S8x8x1048576, .f32⟩ : BufTy).Contents (Elt Ideal)) (l : Fin 8) : Fin 8 → Fin 8 → EReal :=
  fun a b => Cert.ReferenceIdeal.Read.val_main_v3 D (ix3 l a b)

/-- The broadcast row maxima of layer l, read at (l, p, r): the row maximum of row p. -/
theorem ref_max (D : (⟨Cert.ReferenceIdeal.S8x8x1048576, .f32⟩ : BufTy).Contents (Elt Ideal)) (l p r : Fin 8) :
    Cert.ReferenceIdeal.Read.val_main_v8 D (ix3 l p r) = rowMax (refZ D l) p := by
  have e7 : Cert.ReferenceIdeal.Read.idx_main_v7 (Cert.ReferenceIdeal.Read.idx_main_v8 (ix3 l p r)) = ix2 l p :=
    funext fun c => by match c with | ⟨0, _⟩ => rfl | ⟨1, _⟩ => rfl
  refine (Cert.ReferenceIdeal.Read.val_main_v8_apply D _).trans ((Cert.ReferenceIdeal.Read.val_main_v7_apply D _).trans ?_)
  rw [e7]
  refine (Cert.ReferenceIdeal.Read.val_main_v6_apply D _).trans ?_
  unfold rowMax
  show max (Cert.ReferenceIdeal.Read.val_main_v5 (F := Ideal) (ix2 l p)) (Cert.ReferenceIdeal.Read.val_main_v4 D (ix2 l p)) = _
  refine congrArg₂ max ?_ ?_
  · exact (Cert.ReferenceIdeal.Read.val_main_v5_apply (F := Ideal) _).trans (Cert.ReferenceIdeal.Read.val_main_cst_2_apply _)
  · unfold Cert.ReferenceIdeal.Read.val_main_v4
    exact hostLaneMax_apply _ _ _ (by decide) _ l p

/-- The shifted exponentials of layer l, read at (l, p, r). -/
theorem ref_exp (D : (⟨Cert.ReferenceIdeal.S8x8x1048576, .f32⟩ : BufTy).Contents (Elt Ideal)) (l p r : Fin 8) :
    Cert.ReferenceIdeal.Read.val_main_v10 D (ix3 l p r) = rowExp (refZ D l) p r := by
  refine (Cert.ReferenceIdeal.Read.val_main_v10_apply D _).trans ?_
  unfold rowExp
  refine (Ideal.hostUnary_exp_def (φ := .f32) _).trans (congrArg Ideal.exp ?_)
  refine (Cert.ReferenceIdeal.Read.val_main_v9_apply D _).trans ?_
  refine (Ideal.subf_def (φ := .f32) _ _).trans ?_
  rw [ref_max]
  unfold refZ
  rfl

/-- The broadcast row sums of layer l, read at (l, p, q): the sum of row p's shifted exponentials. -/
theorem ref_sum (D : (⟨Cert.ReferenceIdeal.S8x8x1048576, .f32⟩ : BufTy).Contents (Elt Ideal)) (l p q : Fin 8) :
    Cert.ReferenceIdeal.Read.val_main_v13 D (ix3 l p q) = ∑ r : Fin 8, rowExp (refZ D l) p r := by
  have e12 : Cert.ReferenceIdeal.Read.idx_main_v12 (Cert.ReferenceIdeal.Read.idx_main_v13 (ix3 l p q)) = ix2 l p :=
    funext fun c => by match c with | ⟨0, _⟩ => rfl | ⟨1, _⟩ => rfl
  refine (Cert.ReferenceIdeal.Read.val_main_v13_apply D _).trans ((Cert.ReferenceIdeal.Read.val_main_v12_apply D _).trans ?_)
  rw [e12]
  refine (Cert.ReferenceIdeal.Read.val_main_v11_apply D _).trans ?_
  rw [Cert.ReferenceIdeal.Read.val_main_cst_3_apply, Ideal.ofBits_def, Ideal.ofBits_zero_f32, zero_add]
  refine Finset.sum_congr rfl fun r _ => ?_
  have e11 : Cert.ReferenceIdeal.Read.idx_main_v11 (ix2 l p) r = ix3 l p r :=
    funext fun c => by match c with | ⟨0, _⟩ => rfl | ⟨1, _⟩ => rfl | ⟨2, _⟩ => rfl
  rw [e11]
  exact ref_exp D l p r

/-- The array program's softmax of layer l, read at (l, p, q). -/
theorem ref_softmax (D : (⟨Cert.ReferenceIdeal.S8x8x1048576, .f32⟩ : BufTy).Contents (Elt Ideal)) (l p q : Fin 8) :
    Cert.ReferenceIdeal.Read.val_main_v14 D (ix3 l p q) = rowSoftmax (refZ D l) p q := by
  refine (Cert.ReferenceIdeal.Read.val_main_v14_apply D _).trans ?_
  unfold rowSoftmax
  refine (Ideal.hostDivf_def (φ := .f32) _ _).trans ?_
  rw [ref_exp, ref_sum]

/-- The array program's scaled logits: the unscaled ones times the word 0x3A800000's value. -/
theorem refZ_eq (D : (⟨Cert.ReferenceIdeal.S8x8x1048576, .f32⟩ : BufTy).Contents (Elt Ideal)) (l a b : Fin 8) :
    refZ D l a b = Cert.ReferenceIdeal.Read.val_main_v1 D (ix3 l a b) * Ideal.ofBits .f32 0x3A800000#32 := by
  unfold refZ
  refine (Cert.ReferenceIdeal.Read.val_main_v3_apply D _).trans ?_
  refine (Ideal.mulf_def (φ := .f32) _ _).trans ?_
  refine congrArg (Cert.ReferenceIdeal.Read.val_main_v1 D (ix3 l a b) * ·) ?_
  refine (Cert.ReferenceIdeal.Read.val_main_v2_apply (F := Ideal) _).trans ?_
  refine (Cert.ReferenceIdeal.Read.val_main_v0_apply (F := Ideal) _).trans ?_
  rw [Cert.ReferenceIdeal.Read.val_main_cst_apply, Cert.ReferenceIdeal.Read.val_main_cst_0_apply]
  exact scale_eq

/-! ## The two programs' softmax agree -/

/-- If the tile holds layer l's unscaled logits, the tile program's payload at (0, p, q) is the array program's softmax
    at (l, p, q): both are the row softmax of the same scaled logits. -/
theorem softmax_match (D : (⟨Cert.ReferenceIdeal.S8x8x1048576, .f32⟩ : BufTy).Contents (Elt Ideal)) (l : Fin 8)
    (s : Vec Ideal Cert.KernelIdeal.S8x8 .f32)
    (hs : ∀ p r : Fin 8, s (ix2 p r) = Cert.ReferenceIdeal.Read.val_main_v1 D (ix3 l p r)) (p q : Fin 8) :
    Cert.KernelIdeal.Gen.k0_pay3 s (ix3 (0 : Fin 1) p q) = Cert.ReferenceIdeal.Read.val_main_v14 D (ix3 l p q) := by
  refine (kernel_softmax s p q).trans ((ref_softmax D l p q).trans ?_).symm
  refine congrArg (fun Z => rowSoftmax Z p q) (funext fun a => funext fun b => ?_)
  rw [refZ_eq, hs]

end Cert.Bridge.Softmax

end
-- ==== Proof.KernelIdeal.GramValue.lean ====
/-
  What the first kernel leaves in the 8 × 8 × 8 array, at the ideal values: the reference's normalised weights.

  The grid's point t has layer t / 8 and tile t % 8. The input window's block at the point of layer l and tile r is
  the tile r (positions r * 131072 + y) of the rows of layer l of the second argument D. The accumulator restarts from
  the zero matrix at a layer's first tile and adds, tile after tile, the inner products of the rows over the tile's
  positions; so after the layer's eighth tile its entry (p, q) is the sum over all 1048576 positions of
  D (l, p, n) * D (l, q, n), the reference's first contraction. Only that point writes the result's block back, and
  what it writes is the row-normalised exponentials of the scaled accumulator, which for an accumulator equal to the
  contraction are the reference's normalised weights of layer l. The eight written blocks cover the array.
-/
import proofs.«106072_j11029476016525_2_alg».proof.Proof.KernelIdeal.GramDat
import proofs.«106072_j11029476016525_2_alg».proof.Proof.BlockGeom
import proofs.«106072_j11029476016525_2_alg».proof.Proof.BridgeTiles
import proofs.«106072_j11029476016525_2_alg».proof.Proof.SoftmaxRows
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the contents of core c's buffers when the region is entered, at the ideal values
variable (V : (c : Dev nD) → (b : Ref sig .tc) → Buf (Elt Ideal) ((c : Thread nD τ).loc b))

/-- The accumulator after a position depends on the position only. -/
theorem accAt_congr (c : Dev nD) {n m : ℕ} (h : n = m) (hn : n < cfg0.N) (hm : m < cfg0.N) :
    accAt V c n hn = accAt V c m hm := by
  subst h; rfl

/-- The input window's block at the point of layer l and tile r is the tile r of the rows of layer l of D: its entry
    (0, p, y) is D (l, p, r * 131072 + y). -/
theorem iblk0_0_apply (c : Dev nD) (D : (⟨Cert.ReferenceIdeal.S8x8x1048576, .f32⟩ : BufTy).Contents (Elt Ideal))
    (hD : V c main_arg1 = D) (t : Fin cfg0.N) (l r : Fin 8) (ht : t.val = 8 * l.val + r.val) (p : Fin 8)
    (y : Fin 131072) :
    iblk0 V c 0 t (ix3 (0 : Fin 1) p y)
      = D (ix3 l p ⟨r.val * 131072 + y.val, by have := r.isLt; have := y.isLt; omega⟩) := by
  subst hD
  have hl := l.isLt
  have hr := r.isLt
  show V c main_arg1 (((cfg0.win 0).blk t).view.emb (ix3 (0 : Fin 1) p y)) = _
  rw [Geom.emb0_0]
  refine congrArg (V c main_arg1) ?_
  funext ax; apply Fin.ext
  match ax with
  | ⟨0, _⟩ => show t.val / 8 = l.val; omega
  | ⟨1, _⟩ => rfl
  | ⟨2, _⟩ =>
    show t.val % 8 * 131072 + y.val = r.val * 131072 + y.val
    have : t.val % 8 = r.val := by omega
    rw [this]

/-- The accumulator after the last tile of layer l holds the layer's whole matrix of inner products of rows: the
    reference's first contraction at (l, p, q). -/
theorem acc_last (c : Dev nD) (D : (⟨Cert.ReferenceIdeal.S8x8x1048576, .f32⟩ : BufTy).Contents (Elt Ideal))
    (hD : V c main_arg1 = D) (t : Fin cfg0.N) (l : Fin 8) (ht : t.val = 8 * l.val + 7) (p q : Fin 8) :
    accAt V c t.val t.isLt (ix2 p q) = Cert.ReferenceIdeal.Read.val_main_v1 (F := Ideal) D (ix3 l p q) := by
  have hpt : ∀ r : Fin 8, 8 * l.val + r.val < cfg0.N := fun r =>
    Nat.lt_of_lt_of_eq (by have := r.isLt; have := l.isLt; omega : 8 * l.val + r.val < 64) N_0.symm
  have key := Cert.Bridge.Tiles.gram_from_tiles D l
    (fun r => iblk0 V c 0 ⟨8 * l.val + r.val, hpt r⟩)
    (fun r => accAt V c (8 * l.val + r.val) (hpt r))
    (fun r p y => iblk0_0_apply V c D hD ⟨8 * l.val + r.val, hpt r⟩ l r rfl p y)
    (accAt_first V c ⟨8 * l.val + (0 : Fin 8).val, hpt 0⟩ (by show (8 * l.val + 0) % 8 = 0; omega))
    (fun r => (accAt_next V c ⟨8 * l.val + r.succ.val, hpt r.succ⟩
        (by have := r.isLt; simp only [Fin.val_succ]; omega)).trans
      (congrArg (accStep _) (accAt_congr V c
        (by have := r.isLt; simp only [Fin.val_succ, Fin.coe_castSucc]; omega) _ _)))
    p q
  have e : accAt V c t.val t.isLt = accAt V c (8 * l.val + (7 : Fin 8).val) (hpt 7) :=
    accAt_congr V c (by show t.val = 8 * l.val + 7; exact ht) _ _
  exact (congrFun e (ix2 p q)).trans key

/-- What a writing point writes back to the result is its block of the reference's normalised weights. -/
theorem flushed_att (c : Dev nD) (D : (⟨Cert.ReferenceIdeal.S8x8x1048576, .f32⟩ : BufTy).Contents (Elt Ideal))
    (hD : V c main_arg1 = D) (t : Fin cfg0.N) (hf : (cfg0.win 1).flush t = true) :
    (dat0 V c).flushed 1 t
      = ((cfg0.win 1).blk t).view.read (Elt Ideal) (Cert.ReferenceIdeal.Read.val_main_v14 (F := Ideal) D) := by
  have h7 : t.val % 8 = 7 := (flush0_1 t).1 hf
  have hN := Geom.t_lt0 t
  obtain ⟨l, hl⟩ : ∃ l : Fin 8, t.val = 8 * l.val + 7 :=
    ⟨⟨t.val / 8, by omega⟩, by show t.val = 8 * (t.val / 8) + 7; omega⟩
  show (cfg0.win 1).cut (grid0.coords t) ((dat0 V c).after 1 t) = _
  rw [after0_1]
  funext j
  have hj0 : (j 0).val < 1 := (j 0).isLt
  have hj1 : (j 1).val < 8 := (j 1).isLt
  have hj2 : (j 2).val < 8 := (j 2).isLt
  show k0_pay3 (accAt V c t.val t.isLt) ((cfg0.win 1).xinj (grid0.coords t) j)
    = Cert.ReferenceIdeal.Read.val_main_v14 (F := Ideal) D (((cfg0.win 1).blk t).view.emb j)
  rw [Geom.emb0_1]
  have hx : (cfg0.win 1).xinj (grid0.coords t) j
      = ix3 (0 : Fin 1) (⟨(j 1).val, hj1⟩ : Fin 8) (⟨(j 2).val, hj2⟩ : Fin 8) := by
    funext ax; apply Fin.ext
    match ax with
    | ⟨0, _⟩ => show (j 0).val = 0; omega
    | ⟨1, _⟩ => rfl
    | ⟨2, _⟩ => rfl
  rw [hx]
  refine (Cert.Bridge.Softmax.softmax_match D l _ (fun p r => acc_last V c D hD t l hl p r) _ _).trans ?_
  refine congrArg (Cert.ReferenceIdeal.Read.val_main_v14 (F := Ideal) D) ?_
  funext ax; apply Fin.ext
  match ax with
  | ⟨0, _⟩ => show l.val = t.val / 8; omega
  | ⟨1, _⟩ => rfl
  | ⟨2, _⟩ => rfl

/-- THE RESULT of the first region: the 8 × 8 × 8 array ends holding the reference's normalised weights of D. -/
theorem final_att (c : Dev nD) (D : (⟨Cert.ReferenceIdeal.S8x8x1048576, .f32⟩ : BufTy).Contents (Elt Ideal))
    (hD : V c main_arg1 = D) :
    (dat0 (F := Ideal) V c).arrAt 1 cfg0.N = Cert.ReferenceIdeal.Read.val_main_v14 (F := Ideal) D :=
  (dat0 V c).arrAt_eq_of_cover 1 _ (fun t hf => flushed_att V c D hD t hf) (Geom.cover0_1 c)

end Cert.KernelIdeal.Hand

end
-- ==== Proof.KernelIdeal.CombineValue.lean ====
/-
  What the output array holds after the second region, at the ideal values.

  Every point of the second grid writes its output block back, and the blocks tile the 8 × 8 × 1048576 output array:
  the block of point t is layer t / 8, all eight rows, positions (t % 8) * 131072 … (t % 8) * 131072 + 131071. The
  block stored at t is the combined tile of the four input blocks at t, and those are the blocks of the arrays the
  region finds: the deltas and the last parameters at the same layer and positions, the layer's 8 × 8 weights, the
  layer's gate column. When those arrays are the reference's operands and intermediate values, the combined tile at
  (0, k, y) is the reference's result at (t / 8, k, (t % 8) * 131072 + y), which is the read of the reference's result
  through the output block of t. So each write-back writes a block of the reference's result, and since the blocks
  cover the array, the array ends holding the reference's result.
-/
import proofs.«106072_j11029476016525_2_alg».proof.Proof.KernelIdeal.CombineDat
import proofs.«106072_j11029476016525_2_alg».proof.Proof.BlockGeom
import proofs.«106072_j11029476016525_2_alg».proof.Proof.BridgeTiles
import proofs.«106072_j11029476016525_2_alg».proof.Proof.Gen.ReferenceIdeal.Read
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

-- the contents of core c's buffers when the region is entered, at the ideal values
variable (V : (c : Dev nD) → (b : Ref sig .tc) → Buf (Elt Ideal) ((c : Thread nD τ).loc b))

/-- The layer of a point of the second grid. -/
abbrev layer1 (t : Fin cfg1.N) : Fin 8 := ⟨t.val / 8, by have := Geom.t_lt1 t; omega⟩
/-- The tile of a point of the second grid. -/
abbrev tile1 (t : Fin cfg1.N) : Fin 8 := ⟨t.val % 8, by omega⟩

/-! ## The input blocks, entry by entry -/

/-- The deltas block at point t: row k, position y of the block is row k, position tile * 131072 + y of the layer. -/
theorem iblk1_0_apply (c : Dev nD) (D : (⟨Cert.ReferenceIdeal.S8x8x1048576, .f32⟩ : BufTy).Contents (Elt Ideal))
    (hD : V c main_arg1 = D) (t : Fin cfg1.N) (k : Fin 8) (y : Fin 131072) :
    (iblk1 V c 0 t : Vec Ideal S1x8x131072 .f32) (ix3 (0 : Fin 1) k y)
      = D (ix3 (layer1 t) k ⟨(tile1 t).val * 131072 + y.val, by have := (tile1 t).isLt; have := y.isLt; omega⟩) := by
  unfold iblk1
  rw [View.read_apply, Geom.emb1_0, ← hD]
  rfl

/-- The last-parameters block at point t, the same way. -/
theorem iblk1_1_apply (c : Dev nD) (P : (⟨Cert.ReferenceIdeal.S8x8x1048576, .f32⟩ : BufTy).Contents (Elt Ideal))
    (hP : V c main_arg0 = P) (t : Fin cfg1.N) (k : Fin 8) (y : Fin 131072) :
    (iblk1 V c 1 t : Vec Ideal S1x8x131072 .f32) (ix3 (0 : Fin 1) k y)
      = P (ix3 (layer1 t) k ⟨(tile1 t).val * 131072 + y.val, by have := (tile1 t).isLt; have := y.isLt; omega⟩) := by
  unfold iblk1
  rw [View.read_apply, Geom.emb1_1, ← hP]
  rfl

/-- The weights block at point t is the layer's 8 × 8 weights. -/
theorem iblk1_2_apply (c : Dev nD) (A : (⟨Cert.ReferenceIdeal.S8x8x8, .f32⟩ : BufTy).Contents (Elt Ideal))
    (hA : V c main_v0 = A) (t : Fin cfg1.N) (k j : Fin 8) :
    (iblk1 V c 2 t : Vec Ideal S1x8x8 .f32) (ix3 (0 : Fin 1) k j) = A (ix3 (layer1 t) k j) := by
  unfold iblk1
  rw [View.read_apply, Geom.emb1_2, ← hA]
  rfl

/-- The gate column's block at point t is the layer's column. -/
theorem iblk1_3_apply (c : Dev nD) (B : (⟨Cert.ReferenceIdeal.S8x8x1, .f32⟩ : BufTy).Contents (Elt Ideal))
    (hB : V c main_v2 = B) (t : Fin cfg1.N) (k : Fin 8) :
    (iblk1 V c 3 t : Vec Ideal S1x8x1 .f32) (ix3 (0 : Fin 1) k (0 : Fin 1)) = B (ix3 (layer1 t) k (0 : Fin 1)) := by
  unfold iblk1
  rw [View.read_apply, Geom.emb1_3, ← hB]
  rfl

/-! ## What a point writes back, and the array after the region -/

/-- What point t writes back is block t of the reference's result. -/
theorem flushed_out (c : Dev nD) (P D : (⟨Cert.ReferenceIdeal.S8x8x1048576, .f32⟩ : BufTy).Contents (Elt Ideal))
    (Bt : (⟨Cert.ReferenceIdeal.S8x8, .f32⟩ : BufTy).Contents (Elt Ideal))
    (hD : V c main_arg1 = D) (hP : V c main_arg0 = P)
    (hAtt : V c main_v0 = Cert.ReferenceIdeal.Read.val_main_v14 (F := Ideal) D)
    (hB : V c main_v2 = Cert.ReferenceIdeal.Read.val_main_v17 (F := Ideal) Bt) (t : Fin cfg1.N) :
    (dat1 (F := Ideal) V c).flushed 4 t
      = ((cfg1.win 4).blk t).view.read (Elt Ideal) (Cert.ReferenceIdeal.Read.val_main_v21 (F := Ideal) P D Bt) := by
  show (cfg1.win 4).cut (grid1.coords t) ((dat1 (F := Ideal) V c).after 4 t) = _
  rw [after1_4]
  refine funext fun (j : S1x8x131072.Idx) => ?_
  obtain ⟨k, y, rfl⟩ : ∃ (k : Fin 8) (y : Fin 131072), j = ix3 (0 : Fin 1) k y :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  have hR : ((cfg1.win 4).blk t).view.read (Elt Ideal) (Cert.ReferenceIdeal.Read.val_main_v21 (F := Ideal) P D Bt)
        (ix3 (0 : Fin 1) k y)
      = Cert.ReferenceIdeal.Read.val_main_v21 (F := Ideal) P D Bt
          (ix3 (layer1 t) k ⟨(tile1 t).val * 131072 + y.val, by have := (tile1 t).isLt; have := y.isLt; omega⟩) := by
    rw [View.read_apply, Geom.emb1_4]
    rfl
  refine Eq.trans ?_ hR.symm
  exact Cert.Bridge.Tiles.combine_match P D Bt (layer1 t) (tile1 t) _ _ _ _
    (iblk1_0_apply V c D hD t) (iblk1_1_apply V c P hP t) (iblk1_2_apply V c _ hAtt t) (iblk1_3_apply V c _ hB t) k y

/-- The output array after the second region is the reference's result. -/
theorem final_out (c : Dev nD) (P D : (⟨Cert.ReferenceIdeal.S8x8x1048576, .f32⟩ : BufTy).Contents (Elt Ideal))
    (Bt : (⟨Cert.ReferenceIdeal.S8x8, .f32⟩ : BufTy).Contents (Elt Ideal))
    (hD : V c main_arg1 = D) (hP : V c main_arg0 = P)
    (hAtt : V c main_v0 = Cert.ReferenceIdeal.Read.val_main_v14 (F := Ideal) D)
    (hB : V c main_v2 = Cert.ReferenceIdeal.Read.val_main_v17 (F := Ideal) Bt) :
    (dat1 (F := Ideal) V c).arrAt 4 cfg1.N = Cert.ReferenceIdeal.Read.val_main_v21 (F := Ideal) P D Bt :=
  (dat1 (F := Ideal) V c).arrAt_eq_of_cover 4 _ (fun t _ => flushed_out V c P D Bt hD hP hAtt hB t) (Geom.cover1_4 c)

end Cert.KernelIdeal.Hand

end
-- ==== Proof.KernelIdeal.HostVals.lean ====
/-
  What the host lines between the two kernel regions leave in the buffers the second region reads.

  Between the regions the program writes two scalar constants (0.0 and 1.0), clips the 8 × 8 gate matrix between them
  (stretch the lower constant to 8 × 8, take the maximum with the matrix, stretch the upper constant, take the minimum)
  and recasts the clipped matrix as an 8 × 8 × 1 column. None of these lines writes an argument array or the first
  region's result, so those are as the first region left them; and the column is, operation for operation, the
  reference's clipped gate column of the same argument.
-/
import proofs.«106072_j11029476016525_2_alg».proof.Proof.Gen.KernelIdeal.Regions
import proofs.«106072_j11029476016525_2_alg».proof.Proof.Gen.ReferenceIdeal.Read
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.KernelIdeal Cert.KernelIdeal.Gen

variable {F : FTy → Type} [FloatOps F]

section
variable (m : (ℓ : Loc nD τ sig) → Buf (Elt F) ℓ) (outs : Outs (F := F))

/-- No item before the second region writes the first argument array. -/
theorem V4_arg0 (c : Dev nD) : V4 m outs c main_arg0 = m ((c : Thread nD τ).loc main_arg0) :=
  (V4_of m outs c main_arg0 (by decide)).trans <| (V3_of m outs c main_arg0 (by decide)).trans <|
    (V2_of m outs c main_arg0 (by decide)).trans <| (V1_of m outs c main_arg0 (by decide)).trans rfl

/-- Nor the second. -/
theorem V4_arg1 (c : Dev nD) : V4 m outs c main_arg1 = m ((c : Thread nD τ).loc main_arg1) :=
  (V4_of m outs c main_arg1 (by decide)).trans <| (V3_of m outs c main_arg1 (by decide)).trans <|
    (V2_of m outs c main_arg1 (by decide)).trans <| (V1_of m outs c main_arg1 (by decide)).trans rfl

/-- No host line writes the first region's result. -/
theorem V4_att (c : Dev nD) : V4 m outs c main_v0 = V1 m outs c main_v0 :=
  (V4_of m outs c main_v0 (by decide)).trans <| (V3_of m outs c main_v0 (by decide)).trans <|
    (V2_of m outs c main_v0 (by decide))

/-- The column the second region reads is the reference's clipped gate column of the third argument, at any float
    instance: the host lines apply, in order, the operations the reference's stages are defined by. -/
theorem V4_col_any (c : Dev nD) :
    V4 m outs c main_v2 = Cert.ReferenceIdeal.Read.val_main_v17 (F := F) (m ((c : Thread nD τ).loc main_arg2)) := by
  dsimp only [V4, V3, V2]
  after_results
  refine Eq.trans ?_ (congrArg (fun x => Cert.ReferenceIdeal.Read.val_main_v17 (F := F) x)
    ((V1_of m outs c main_arg2 (by decide)).trans rfl))
  rfl

end

/-- The same at the ideal values. -/
theorem V4_col (m : (ℓ : Loc nD τ sig) → Buf (Elt Ideal) ℓ) (outs : Outs (F := Ideal)) (c : Dev nD) :
    V4 m outs c main_v2
      = Cert.ReferenceIdeal.Read.val_main_v17 (F := Ideal) (m ((c : Thread nD τ).loc main_arg2)) :=
  V4_col_any m outs c

end Cert.KernelIdeal.Hand

end
-- ==== Proof.KernelIdeal.Value.lean ====
/-
  The idealized kernel's value: what the whole program leaves in the result array, at the ideal values.

  The run's post names the result array as what the second region's write-backs leave. The second region finds the
  two large arguments as launched, the 8 × 8 × 8 array at what the first region left — the reference's normalised
  weights of the second argument — and the column array at the reference's clipped gate of the third argument
  (computed by the host lines between the regions); from those four, what it leaves is the reference's result of the
  three arguments.
-/
import proofs.«106072_j11029476016525_2_alg».proof.Proof.KernelIdeal.Run
import proofs.«106072_j11029476016525_2_alg».proof.Proof.KernelIdeal.GramValue
import proofs.«106072_j11029476016525_2_alg».proof.Proof.KernelIdeal.CombineValue
import proofs.«106072_j11029476016525_2_alg».proof.Proof.KernelIdeal.HostVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (ρ : Dev nD → PrngReg)

/-! ## What the two regions find in their arrays -/

/-- The first region finds the second argument as launched. -/
theorem Vin0_arg1 (c : Dev nD) : Vin0 m c main_arg1 = m ((c : Thread nD τ).loc main_arg1) := rfl

/-- The second region finds the second argument as launched: no item before it writes an argument. -/
theorem Vin1_arg1 (c : Dev nD) : Vin1 m c main_arg1 = m ((c : Thread nD τ).loc main_arg1) :=
  V4_arg1 m (outs0 m) c

/-- The second region finds the first argument as launched. -/
theorem Vin1_arg0 (c : Dev nD) : Vin1 m c main_arg0 = m ((c : Thread nD τ).loc main_arg0) :=
  V4_arg0 m (outs0 m) c

/-- The second region finds, in the column array, the reference's clipped gate of the third argument stretched along
    a unit axis: the host lines between the regions compute it. -/
theorem Vin1_col (c : Dev nD) :
    Vin1 m c main_v2 = Cert.ReferenceIdeal.Read.val_main_v17 (F := Ideal) (m ((c : Thread nD τ).loc main_arg2)) :=
  V4_col m (outs0 m) c

/-- The second region finds, in the 8 × 8 × 8 array, what the first region's write-backs left (no host line writes
    it): the reference's normalised weights of the second argument. -/
theorem Vin1_att (c : Dev nD) :
    Vin1 m c main_v0 = Cert.ReferenceIdeal.Read.val_main_v14 (F := Ideal) (m ((c : Thread nD τ).loc main_arg1)) :=
  (V4_att m (outs0 m) c).trans
    (((congrFun (V1_outs m c) _).symm.trans (V1_att m c)).trans
      (final_att (Vin0 m) c (m ((c : Thread nD τ).loc main_arg1)) (Vin0_arg1 m c)))

/-! ## The run's value -/

/-- THE IDEALIZED KERNEL'S VALUE: every weakly fair execution from memory m terminates without a fault; the result
    array ends holding the reference's result of the three argument arrays, and the arguments are as launched. -/
theorem kernel_value :
    θ_run (defs (F := Ideal)) (onTc (τ := τ) (main (F := Ideal))) ⟨m, fun _ => 0, ρ⟩ (fun r => ∀ c : Dev nD,
      r.2.mem ((c.tc : Thread nD τ).loc main_v3)
        = Cert.ReferenceIdeal.Read.val_main_v21 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨(h c).1.trans
        (final_out (Vin1 m) c (m ((c : Thread nD τ).loc main_arg0)) (m ((c : Thread nD τ).loc main_arg1))
          (m ((c : Thread nD τ).loc main_arg2)) (Vin1_arg1 m c) (Vin1_arg0 m c) (Vin1_att m c) (Vin1_col m c)),
      (h c).2⟩)
    (run_val m ρ)

end Cert.KernelIdeal.Hand

end
-- ==== Proof.lean ====
/-
  Two programs over last_params, deltas : f32[8, 8, 1048576] and beta : f32[8, 8] are shown equal at the ideal
  (extended real) values, and the kernel program and its idealization are shown to run to the end with their
  arguments unchanged.

  Per layer l the reference forms the 8 × 8 matrix of inner products of the layer's eight rows of deltas over all
  1048576 positions, scales it by 1048576^(-1/2), normalises each row by a softmax (subtract the row maximum,
  exponentiate, divide by the row sum), multiplies the resulting 8 × 8 matrix into the layer's rows, and returns
  last_params + (deltas + clip(beta, 0, 1) · that product), the clipped weight constant along a row.

  The kernel program does the same in two passes over the grid of 8 layers × 8 tiles of 131072 positions. The first
  pass accumulates the inner-product matrix tile by tile in a scratch buffer (zeroed at a layer's first tile) and at the
  layer's last tile stores the softmax of the accumulator scaled by the literal 2^(-10); the second pass, tile by tile,
  multiplies the layer's 8 × 8 attention block into the tile and adds the two arrays as above. The two programs agree
  because a sum over 1048576 positions is the sum over the 8 tiles of the tiles' sums (addition of extended reals is
  commutative and associative; nothing here needs the inputs to be finite), because (2^20)^(-1/2) = 2^(-10) exactly, and
  because every other operation is the same function on both sides, index by index.

  The frames of the two kernel programs come from one run each, built region by region: the first region's invariant
  tracks the accumulator's contents from point to point, the second region's is the plain one; between the regions the
  host lines clip beta and recast it as a column. The reference's frame and value are its generated run.
-/
import proofs.«106072_j11029476016525_2_alg».proof.Defs
import proofs.«106072_j11029476016525_2_alg».proof.Proof.Gen.Kernel
import proofs.«106072_j11029476016525_2_alg».proof.Proof.Gen.KernelIdeal
import proofs.«106072_j11029476016525_2_alg».proof.Proof.Gen.ReferenceIdeal
import proofs.«106072_j11029476016525_2_alg».proof.Proof.Gen.Pre_finite_inputs
import proofs.«106072_j11029476016525_2_alg».proof.Proof.Gen.ReferenceIdeal.Read
import proofs.«106072_j11029476016525_2_alg».proof.Proof.Kernel.Run
import proofs.«106072_j11029476016525_2_alg».proof.Proof.KernelIdeal.Value
import Idealize.ShloMosaic.Adequacy
import Idealize.ShloMosaic.Init

noncomputable section

namespace Cert.Proof

open Idealize.ShloMosaic Idealize.ShloMosaic.TcCoe Idealize.SL.Sem

/-- The word-level kernel program runs to the end and leaves its three arguments as launched. -/
theorem frame_kernel : Cert.frame_Kernel := fun m ρ _ =>
  (θ_run (Cert.Kernel.defs (F := Bits)) _ _).mono (fun _ h c => (h c).2) (Cert.Kernel.Hand.run_val (F := Bits) m ρ)

/-- So does its idealization. -/
theorem frame_kernelIdeal : Cert.frame_KernelIdeal := fun m ρ _ =>
  (θ_run (Cert.KernelIdeal.defs (F := Ideal)) _ _).mono (fun _ h c => (h c).2) (Cert.KernelIdeal.Hand.run_val (F := Ideal) m ρ)

/-- The reference is a line of host operations: its generated run, the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation of the kernel program. -/
theorem preserves : Cert.preserves_Kernel_KernelIdeal := trivial

/-- At the ideal values both programs end with the result array at the reference's composed function of the three
    arguments: the kernel program by the two regions' block-by-block values, the reference by its generated run. -/
theorem algebraic : Cert.algebraic_KernelIdeal_ReferenceIdeal := by
  intro m ρ m' ρ' _ hagree
  refine ⟨fun c => Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_value m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v21_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
